-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S64x32 .f32) (main_arg7 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 108
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x32, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x32, .f32⟩
  | .hbm, ⟨99, _⟩ => ⟨S1700000x1, .f32⟩
  | .hbm, ⟨100, _⟩ => ⟨S1700000x32, .f32⟩
  | .hbm, ⟨101, _⟩ => ⟨S1700000x32, .f32⟩
  | .hbm, ⟨102, _⟩ => ⟨S_, .f32⟩
  | .hbm, ⟨103, _⟩ => ⟨S100000x32, .f32⟩
  | .hbm, ⟨104, _⟩ => ⟨S1700000x1, .i32⟩
  | .hbm, ⟨105, _⟩ => ⟨S100000x32, .f32⟩
  | .hbm, ⟨106, _⟩ => ⟨S1x32, .f32⟩
  | .hbm, ⟨107, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S100000x32.size a
  hwx5_2 : ∀ i : grid5.Coords, EltTy.bits .f32 = 32 ∨ (Rect.block (s := S100000x32) S5000x32.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 117
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x32, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x32, .f32⟩
  | .hbm, ⟨107, _⟩ => ⟨S1700000x1, .f32⟩
  | .hbm, ⟨108, _⟩ => ⟨S1700000x32, .f32⟩
  | .hbm, ⟨109, _⟩ => ⟨S1700000x32, .f32⟩
  | .hbm, ⟨110, _⟩ => ⟨S_, .f32⟩
  | .hbm, ⟨111, _⟩ => ⟨S100000x32, .f32⟩
  | .hbm, ⟨112, _⟩ => ⟨S1700000x1, .i32⟩
  | .hbm, ⟨113, _⟩ => ⟨S100000x32, .f32⟩
  | .hbm, ⟨114, _⟩ => ⟨S1x32, .f32⟩
  | .hbm, ⟨115, _⟩ => ⟨S100000x32, .f32⟩
  | .hbm, ⟨116, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  A three-layer graph convolution, written once as a function of its eight argument arrays.

  The graph: `edges` is a [2, E] array of node numbers, row 0 the sources and row 1 the targets.  Every node gets a
  loop to itself, so the lists of sources and of targets are the given E entries followed by 0, 1, …, N - 1.
  The degree of a node is the number of list entries that target it; `dis` is deg^(-1/2) where the degree is
  positive and 0 elsewhere; an edge's weight is the product of `dis` at its source and at its target.
  One layer sends x to  (sum over the edges into a node of weight · (x · W)[source]) + b,  the first two layers
  followed by max(·, 0).  A negative node number is read from the end of the table (N is added to it) before the
  gather, as the array indexing does.
-/
import proofs.«165101_j81174881894904_1_alg».proof.KernelIdeal
import proofs.«165101_j81174881894904_1_alg».proof.ReferenceIdeal
import proofs.«165101_j81174881894904_1_alg».proof.Proof.Gen.KernelIdeal
import proofs.«165101_j81174881894904_1_alg».proof.Proof.Gen.ReferenceIdeal

noncomputable section

namespace Cert.Gcn

open Idealize.ShloMosaic Cert.KernelIdeal Cert.KernelIdeal.Facts₀

variable {F : FTy → Type} [FloatOps F]

/-- The sources (`r = 0`) or targets (`r = 1`) of the edges, followed by every node once. -/
def srcs (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

def tgts (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The number of list entries that target each node. -/
def deg (col : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- deg^(-1/2) where the degree is positive, 0 elsewhere. -/
def dis (d : (⟨S100000, .f32⟩ : BufTy).Contents (Elt F)) : (⟨S100000, .f32⟩ : BufTy).Contents (Elt F) :=
  select (cmpf .ogt d (broadcastInDim S100000 ![] bcast_S_S100000 (constant S_ .f32 0x00000000#32)))
    (Host.rsqrt (maximumf d (broadcastInDim S100000 ![] bcast_S_S100000 (constant S_ .f32 0x3F800000#32))))
    (broadcastInDim S100000 ![] bcast_S_S100000 (id (constant S_ .f32 0x00000000#32)))

/-- Node numbers as gather indices: a negative one counted from the end of the table, the list laid as a column. -/
def wrap (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The weight of each list entry: `dis` at its source times `dis` at its target. -/
def weight (row col : (⟨S1700000, .i32⟩ : BufTy).Contents (Elt F)) : (⟨S1700000, .f32⟩ : BufTy).Contents (Elt F) :=
  mulf (Host.gather gather_S100000_S1700000x1_S1700000_n_0_n_n_0_1_1 (dis (deg col)) (wrap row))
    (Host.gather gather_S100000_S1700000x1_S1700000_n_0_n_n_0_1_1 (dis (deg col)) (wrap col))

/-- Layer 1's aggregation: each node receives the weighted rows of `h` at the sources of the entries that target it. -/
def agg1 (h : (⟨S100000x128, .f32⟩ : BufTy).Contents (Elt F)) (row col : (⟨S1700000, .i32⟩ : BufTy).Contents (Elt F))
    (wt : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (mulf (Host.gather gather_S100000x128_S1700000x1_S1700000x128_1_0_n_n_0_1_1128 h (wrap row))
      (broadcastInDim S1700000x128 ![0, 1] bcast_S1700000x1_S1700000x128_0_1 (broadcastInDim S1700000x1 ![0] bcast_S1700000_S1700000x1_0 wt)))

/-- Layer 1's transform x · W, over all nodes at once. -/
def lin1 (x : (⟨S100000x256, .f32⟩ : BufTy).Contents (Elt F)) (w : (⟨S256x128, .f32⟩ : BufTy).Contents (Elt F)) :
    (⟨S100000x128, .f32⟩ : BufTy).Contents (Elt F) :=
  Host.dotGeneral Cert.ReferenceIdeal.dot_S100000x256_S256x128_S100000x128_1_0_0_1_n_n none x w

/-- Layer 1's bias, repeated over the nodes and added. -/
def bias1 (a : (⟨S100000x128, .f32⟩ : BufTy).Contents (Elt F)) (b : (⟨S128, .f32⟩ : BufTy).Contents (Elt F)) :
    (⟨S100000x128, .f32⟩ : BufTy).Contents (Elt F) :=
  addf a (broadcastInDim S100000x128 ![0, 1] Cert.ReferenceIdeal.Facts₀.bcast_S1x128_S100000x128_0_1
    (broadcastInDim S1x128 ![1] Cert.ReferenceIdeal.Facts₀.bcast_S128_S1x128_1 b))

/-- max(·, 0), entry by entry. -/
def relu1 (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- Layer 2's aggregation: each node receives the weighted rows of `h` at the sources of the entries that target it. -/
def agg2 (h : (⟨S100000x64, .f32⟩ : BufTy).Contents (Elt F)) (row col : (⟨S1700000, .i32⟩ : BufTy).Contents (Elt F))
    (wt : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 col)
    (mulf (Host.gather gather_S100000x64_S1700000x1_S1700000x64_1_0_n_n_0_1_164 h (wrap row))
      (broadcastInDim S1700000x64 ![0, 1] bcast_S1700000x1_S1700000x64_0_1 (broadcastInDim S1700000x1 ![0] bcast_S1700000_S1700000x1_0 wt)))

/-- Layer 2's transform x · W, over all nodes at once. -/
def lin2 (x : (⟨S100000x128, .f32⟩ : BufTy).Contents (Elt F)) (w : (⟨S128x64, .f32⟩ : BufTy).Contents (Elt F)) :
    (⟨S100000x64, .f32⟩ : BufTy).Contents (Elt F) :=
  Host.dotGeneral Cert.ReferenceIdeal.dot_S100000x128_S128x64_S100000x64_1_0_0_1_n_n none x w

/-- Layer 2's bias, repeated over the nodes and added. -/
def bias2 (a : (⟨S100000x64, .f32⟩ : BufTy).Contents (Elt F)) (b : (⟨S64, .f32⟩ : BufTy).Contents (Elt F)) :
    (⟨S100000x64, .f32⟩ : BufTy).Contents (Elt F) :=
  addf a (broadcastInDim S100000x64 ![0, 1] Cert.ReferenceIdeal.Facts₀.bcast_S1x64_S100000x64_0_1
    (broadcastInDim S1x64 ![1] Cert.ReferenceIdeal.Facts₀.bcast_S64_S1x64_1 b))

/-- max(·, 0), entry by entry. -/
def relu2 (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- Layer 3's aggregation: each node receives the weighted rows of `h` at the sources of the entries that target it. -/
def agg3 (h : (⟨S100000x32, .f32⟩ : BufTy).Contents (Elt F)) (row col : (⟨S1700000, .i32⟩ : BufTy).Contents (Elt F))
    (wt : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 col)
    (mulf (Host.gather gather_S100000x32_S1700000x1_S1700000x32_1_0_n_n_0_1_132 h (wrap row))
      (broadcastInDim S1700000x32 ![0, 1] bcast_S1700000x1_S1700000x32_0_1 (broadcastInDim S1700000x1 ![0] bcast_S1700000_S1700000x1_0 wt)))

/-- Layer 3's transform x · W, over all nodes at once. -/
def lin3 (x : (⟨S100000x64, .f32⟩ : BufTy).Contents (Elt F)) (w : (⟨S64x32, .f32⟩ : BufTy).Contents (Elt F)) :
    (⟨S100000x32, .f32⟩ : BufTy).Contents (Elt F) :=
  Host.dotGeneral Cert.ReferenceIdeal.dot_S100000x64_S64x32_S100000x32_1_0_0_1_n_n none x w

/-- Layer 3's bias, repeated over the nodes and added. -/
def bias3 (a : (⟨S100000x32, .f32⟩ : BufTy).Contents (Elt F)) (b : (⟨S32, .f32⟩ : BufTy).Contents (Elt F)) :
    (⟨S100000x32, .f32⟩ : BufTy).Contents (Elt F) :=
  addf a (broadcastInDim S100000x32 ![0, 1] Cert.ReferenceIdeal.Facts₀.bcast_S1x32_S100000x32_0_1
    (broadcastInDim S1x32 ![1] Cert.ReferenceIdeal.Facts₀.bcast_S32_S1x32_1 b))

/-- The network's output as a function of the eight arguments. -/
def out (x : (⟨S100000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F))
    (w3 : (⟨S64x32, .f32⟩ : BufTy).Contents (Elt F)) (b3 : (⟨S32, .f32⟩ : BufTy).Contents (Elt F)) :
    (⟨S100000x32, .f32⟩ : BufTy).Contents (Elt F) :=
  bias3 (agg3 (lin3 (relu2 (bias2 (agg2 (lin2 (relu1 (bias1 (agg1 (lin1 x w1) (srcs e) (tgts e) (weight (srcs e) (tgts e))) b1)) w2)
    (srcs e) (tgts e) (weight (srcs e) (tgts e))) b2)) w3) (srcs e) (tgts e) (weight (srcs e) (tgts e))) b3

end Cert.Gcn

end
-- ==== Proof.KOut.lean ====
/-
  The idealized kernel's run with its final memory named: every weakly fair execution of @main ends with every buffer
  that outlives the regions (the arguments, the host operations' values, each region's result) holding the contents
  at the last of @main's twelve segment boundaries: the fold, from the launch memory, of each host stretch's
  operations and of each region's write-backs.  The result array and the arguments are read off it.
-/
import proofs.«165101_j81174881894904_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in its final state every buffer that outlives the
    regions holds the last boundary's contents. -/
theorem run : θ_run defs (onTc (τ := τ) (main (F := F))) ⟨m, fun _ => 0, ρ⟩ (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Out

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«165101_j81174881894904_1_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.Reg0.lean ====
/-
  Region 0 of the kernel: the transform x · W of layer 1, twenty blocks of 5000 nodes.

  A grid point t loads rows 5000 t … 5000 t + 4999 of x and the whole of W, and writes their product to the same rows
  of the result.  An entry of that block is the sum over k of x (5000 t + p, k) · W (k, q): the entry
  (5000 t + p, q) of the product of the whole arrays.  The twenty blocks cover every row, so after the region the
  result array is x · W.
-/
import proofs.«165101_j81174881894904_1_alg».proof.Proof.Gen.KernelIdeal.Frame
import proofs.«165101_j81174881894904_1_alg».proof.Proof.Spec
import proofs.«165101_j81174881894904_1_alg».proof.Proof.LibMatmul2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The two products' free axes -/

theorem blk_lhs0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem blk_rhs1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl
theorem all_lhs0 (i : S100000x128.Idx) (q : Cert.ReferenceIdeal.dot_S100000x256_S256x128_S100000x128_1_0_0_1_n_n.contr.Idx) : (Cert.ReferenceIdeal.dot_S100000x256_S256x128_S100000x128_1_0_0_1_n_n.lhsIdx i q 0).val = (i 0).val := by
  unfold DotDims.lhsIdx
  rw [dif_neg (show ¬(0 : Fin S100000x256.rank) ∈ Cert.ReferenceIdeal.dot_S100000x256_S256x128_S100000x128_1_0_0_1_n_n.lhsBatch by decide), dif_pos (show (0 : Fin S100000x256.rank) ∈ Cert.ReferenceIdeal.dot_S100000x256_S256x128_S100000x128_1_0_0_1_n_n.lhsNonContracting by decide)]
  rfl
theorem all_rhs1 (i : S100000x128.Idx) (q : Cert.ReferenceIdeal.dot_S100000x256_S256x128_S100000x128_1_0_0_1_n_n.contr.Idx) : (Cert.ReferenceIdeal.dot_S100000x256_S256x128_S100000x128_1_0_0_1_n_n.rhsIdx i q 1).val = (i 1).val := by
  unfold DotDims.rhsIdx
  rw [dif_neg (show ¬(1 : Fin S256x128.rank) ∈ Cert.ReferenceIdeal.dot_S100000x256_S256x128_S100000x128_1_0_0_1_n_n.rhsBatch by decide), dif_pos (show (1 : Fin S256x128.rank) ∈ Cert.ReferenceIdeal.dot_S100000x256_S256x128_S100000x128_1_0_0_1_n_n.rhsNonContracting by decide)]
  rfl

/-! ## A block's entry and the whole product's entry -/

/-- The block's entry (p, q): the sum over k of the loaded rows' (p, k) times the weights' (k, q); the change of float
    format on the way into the product is the identity on extended reals. -/
theorem pay_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact LibMatmul2.matmul_zero_apply dot_S5000x256_S256x128_S5000x128_1_0_0_1_n_n rfl rfl rfl rfl blk_lhs0 blk_rhs1 none _ _ p q

/-- The whole product's entry (r, q). -/
theorem lin_apply (X : (⟨S100000x256, .f32⟩ : BufTy).Contents (Elt Ideal)) (W : (⟨S256x128, .f32⟩ : BufTy).Contents (Elt Ideal))
    (r : Fin 100000) (q : Fin 128) :
    Cert.Gcn.lin1 X W (ix2 r q) = ∑ k : Fin 256, X (ix2 r k) * W (ix2 k q) := by
  unfold Cert.Gcn.lin1
  exact LibMatmul2.dotGeneral_apply Cert.ReferenceIdeal.dot_S100000x256_S256x128_S100000x128_1_0_0_1_n_n rfl rfl rfl rfl all_lhs0 all_rhs1 none X W r q

/-- A block whose rows are rows T·5000 … of X, against the whole of W, holds at j what X · W holds at row
    T·5000 + j₀, column j₁. -/
theorem block_entry (X : (⟨S100000x256, .f32⟩ : BufTy).Contents (Elt Ideal)) (W : (⟨S256x128, .f32⟩ : BufTy).Contents (Elt Ideal))
    (x0 : Vec Ideal S5000x256 .f32) (x1 : Vec Ideal S256x128 .f32) (T : ℕ)
    (hx0 : ∀ (p : Fin 5000) (k : Fin 256) (r : Fin 100000), r.val = T * 5000 + p.val → x0 (ix2 p k) = X (ix2 r k))
    (hx1 : ∀ (k : Fin 256) (q : Fin 128), x1 (ix2 k q) = W (ix2 k q))
    (j : S5000x128.Idx) (i : S100000x128.Idx) (hi0 : (i 0).val = T * 5000 + (j 0).val) (hi1 : (i 1).val = (j 1).val) :
    k0_pay1 x0 x1 j = Cert.Gcn.lin1 X W i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [pay_apply, lin_apply]
  exact Finset.sum_congr rfl fun k _ => by rw [hx0 p k r hi0, hx1 k s]

/-! ## The blocks' places -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed_eq (c : Dev nD) (t : Fin cfg0.N) :
    (dat0 V c).flushed 2 t = ((cfg0.win 2).blk t).view.read (Elt Ideal) (Cert.Gcn.lin1 (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (iblk0 V c 0 t) (iblk0 V c 1 t) j = Cert.Gcn.lin1 (V c main_arg0) (V c main_arg2) (((cfg0.win 2).blk t).view.emb j)
  refine block_entry (V c main_arg0) (V c main_arg2) (iblk0 V c 0 t) (iblk0 V c 1 t) t.val ?_ ?_ j _ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 256 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show win0_2.index t (0 : Fin 2) * 5000 + 1 * (j 0).val = t.val * 5000 + (j 0).val; omega
  · show win0_2.index t (1 : Fin 2) * 128 + 1 * (j 1).val = (j 1).val; omega

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the result is in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < grid0.N := by omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After the region the result array is the product of the two arrays the region found. -/
theorem final (c : Dev nD) : (dat0 V c).arrAt 2 cfg0.N = Cert.Gcn.lin1 (V c main_arg0) (V c main_arg2) :=
  (dat0 V c).arrAt_eq_of_cover 2 _ (fun t _ => flushed_eq V c t) cover

end Cert.KernelIdeal.Reg0

end
-- ==== Proof.Reg1.lean ====
/-
  Region 1 of the kernel: layer 1's bias and max(·, 0), twenty blocks of 5000 nodes.

  A grid point t loads rows 5000 t … 5000 t + 4999 of the aggregated features and the bias laid as a [1, 128] row, adds
  the row to every loaded row, takes the maximum with 0, and writes the block back to the same rows of the result.  Entry (p, q) of
  the block is max(a (5000 t + p, q) + b q, 0): the same entry of the bias added over all nodes at once.  The
  twenty blocks cover every row.
-/
import proofs.«165101_j81174881894904_1_alg».proof.Proof.Gen.KernelIdeal.Frame
import proofs.«165101_j81174881894904_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Reg1

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## A block's entry and the whole array's entry -/

/-- The block's entry (p, q): the loaded entry plus the row's entry q, against 0. -/
theorem pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Scalar.ofBits .f32 0x00000000#32 : Ideal .f32) := by
  unfold k1_pay1
  show max (shapeCast S5000x128 x0 _ (ix2 p q)
      + broadcastTo S5000x128 (shapeCast S1x128 x1 _) _ (ix2 p q)) (Scalar.ofBits .f32 0x00000000#32 : Ideal .f32) = _
  rw [shapeCast_self, shapeCast_self, broadcastTo_1b_ab_apply]

/-- The bias added over all nodes at once, against 0, at (r, s). -/
theorem whole_apply (X : (⟨S100000x128, .f32⟩ : BufTy).Contents (Elt Ideal)) (b : (⟨S128, .f32⟩ : BufTy).Contents (Elt Ideal))
    (r : Fin 100000) (s : Fin 128) :
    Cert.Gcn.relu1 (Cert.Gcn.bias1 X b) (ix2 r s) = max (X (ix2 r s) + b (ix1 s)) (Scalar.ofBits .f32 0x00000000#32 : Ideal .f32) := by
  unfold Cert.Gcn.relu1 Cert.Gcn.bias1
  show max (X (ix2 r s) + broadcastInDim S100000x128 ![0, 1] Cert.ReferenceIdeal.Facts₀.bcast_S1x128_S100000x128_0_1
      (broadcastInDim S1x128 ![1] Cert.ReferenceIdeal.Facts₀.bcast_S128_S1x128_1 b) (ix2 r s)) (Scalar.ofBits .f32 0x00000000#32 : Ideal .f32) = _
  rw [broadcastInDim_apply _ Cert.ReferenceIdeal.Facts₀.bcast_S1x128_S100000x128_0_1 _ (ix2 r s) (ix2 (0 : Fin 1) s) (fun a => match a with
      | ⟨0, _⟩ => by show 0 = if (1 : Nat) = 1 then 0 else r.val; rw [if_pos rfl]
      | ⟨1, _⟩ => by show s.val = if (128 : Nat) = 1 then 0 else s.val; rw [if_neg (by decide)]),
    broadcastInDim_apply _ Cert.ReferenceIdeal.Facts₀.bcast_S128_S1x128_1 b (ix2 (0 : Fin 1) s) (ix1 s) (fun a => match a with
      | ⟨0, _⟩ => by show s.val = if (128 : Nat) = 1 then 0 else s.val; rw [if_neg (by decide)])]

/-- A block whose rows are rows T·5000 … of X, with the bias b laid as a row, holds at j what the whole array holds
    at row T·5000 + j₀, column j₁. -/
theorem block_entry (X : (⟨S100000x128, .f32⟩ : BufTy).Contents (Elt Ideal)) (b : (⟨S128, .f32⟩ : BufTy).Contents (Elt Ideal))
    (x0 : Vec Ideal S5000x128 .f32) (x1 : Vec Ideal S1x128 .f32) (T : ℕ)
    (hx0 : ∀ (p : Fin 5000) (q : Fin 128) (r : Fin 100000), r.val = T * 5000 + p.val → x0 (ix2 p q) = X (ix2 r q))
    (hx1 : ∀ (q : Fin 128), x1 (ix2 (0 : Fin 1) q) = b (ix1 q))
    (j : S5000x128.Idx) (i : S100000x128.Idx) (hi0 : (i 0).val = T * 5000 + (j 0).val) (hi1 : (i 1).val = (j 1).val) :
    k1_pay1 x0 x1 j = Cert.Gcn.relu1 (Cert.Gcn.bias1 X b) i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [pay_apply, whole_apply, hx0 p s r hi0, hx1 s]

/-! ## The blocks' places -/

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the arrays as the region finds them, the
    region's second array being the bias b cast to a row. -/
theorem flushed_eq (c : Dev nD) (b : (⟨S128, .f32⟩ : BufTy).Contents (Elt Ideal))
    (hb : ∀ q : Fin 128, V c main_v46 (ix2 (0 : Fin 1) q) = b (ix1 q)) (t : Fin cfg1.N) :
    (dat1 V c).flushed 2 t = ((cfg1.win 2).blk t).view.read (Elt Ideal) (Cert.Gcn.relu1 (Cert.Gcn.bias1 (V c main_v45) b)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j = Cert.Gcn.relu1 (Cert.Gcn.bias1 (V c main_v45) b) (((cfg1.win 2).blk t).view.emb j)
  refine block_entry (V c main_v45) b (iblk1 V c 0 t) (iblk1 V c 1 t) t.val ?_ ?_ j _ ?_ ?_
  · intro p q r hr
    show V c main_v45 (((cfg1.win 0).blk t).view.emb (ix2 p q)) = V c main_v45 (ix2 r q)
    refine congrArg (V c main_v45) (funext fun a => Fin.ext ?_)
    match a with
    | ⟨0, _⟩ => show win1_0.index t (0 : Fin 2) * 5000 + 1 * p.val = r.val; omega
    | ⟨1, _⟩ => show win1_0.index t (1 : Fin 2) * 128 + 1 * q.val = q.val; omega
  · intro q
    refine Eq.trans ?_ (hb q)
    show V c main_v46 (((cfg1.win 1).blk t).view.emb (ix2 (0 : Fin 1) q)) = V c main_v46 (ix2 (0 : Fin 1) q)
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show win1_2.index t (0 : Fin 2) * 5000 + 1 * (j 0).val = t.val * 5000 + (j 0).val; omega
  · show win1_2.index t (1 : Fin 2) * 128 + 1 * (j 1).val = (j 1).val; omega

/-- An index of the result is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row r of the result is in the block of point r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  have ht : (i 0).val / 5000 < grid1.N := by omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- After the region the result array is the bias added, against 0, over all nodes, the bias being the vector whose
    row the region found in its second array. -/
theorem final (c : Dev nD) (b : (⟨S128, .f32⟩ : BufTy).Contents (Elt Ideal))
    (hb : ∀ q : Fin 128, V c main_v46 (ix2 (0 : Fin 1) q) = b (ix1 q)) :
    (dat1 V c).arrAt 2 cfg1.N = Cert.Gcn.relu1 (Cert.Gcn.bias1 (V c main_v45) b) :=
  (dat1 V c).arrAt_eq_of_cover 2 _ (fun t _ => flushed_eq V c b hb t) cover

end Cert.KernelIdeal.Reg1

end
-- ==== Proof.Reg2.lean ====
/-
  Region 2 of the kernel: the transform x · W of layer 2, twenty blocks of 5000 nodes.

  A grid point t loads rows 5000 t … 5000 t + 4999 of x and the whole of W, and writes their product to the same rows
  of the result.  An entry of that block is the sum over k of x (5000 t + p, k) · W (k, q): the entry
  (5000 t + p, q) of the product of the whole arrays.  The twenty blocks cover every row, so after the region the
  result array is x · W.
-/
import proofs.«165101_j81174881894904_1_alg».proof.Proof.Gen.KernelIdeal.Frame
import proofs.«165101_j81174881894904_1_alg».proof.Proof.Spec
import proofs.«165101_j81174881894904_1_alg».proof.Proof.LibMatmul2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The two products' free axes -/

theorem blk_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
theorem all_lhs0 (i : S100000x64.Idx) (q : Cert.ReferenceIdeal.dot_S100000x128_S128x64_S100000x64_1_0_0_1_n_n.contr.Idx) : (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem all_rhs1 (i : S100000x64.Idx) (q : Cert.ReferenceIdeal.dot_S100000x128_S128x64_S100000x64_1_0_0_1_n_n.contr.Idx) : (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-! ## A block's entry and the whole product's entry -/

/-- The block's entry (p, q): the sum over k of the loaded rows' (p, k) times the weights' (k, q); the change of float
    format on the way into the product is the identity on extended reals. -/
theorem pay_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  refine (LibMatmul2.matmul_zero_apply dot_S5000x128_S128x64_S5000x64_1_0_0_1_n_n rfl rfl rfl rfl blk_lhs0 blk_rhs1 none _ _ p q).trans ?_
  refine Finset.sum_congr rfl fun k _ => ?_
  show shapeCast S5000x128 x0 _ (ix2 p k) * x1 (ix2 k q) = _
  rw [shapeCast_self]

/-- The whole product's entry (r, q). -/
theorem lin_apply (X : (⟨S100000x128, .f32⟩ : BufTy).Contents (Elt Ideal)) (W : (⟨S128x64, .f32⟩ : BufTy).Contents (Elt Ideal))
    (r : Fin 100000) (q : Fin 64) :
    Cert.Gcn.lin2 X W (ix2 r q) = ∑ k : Fin 128, X (ix2 r k) * W (ix2 k q) := by
  unfold Cert.Gcn.lin2
  exact LibMatmul2.dotGeneral_apply Cert.ReferenceIdeal.dot_S100000x128_S128x64_S100000x64_1_0_0_1_n_n rfl rfl rfl rfl all_lhs0 all_rhs1 none X W r q

/-- A block whose rows are rows T·5000 … of X, against the whole of W, holds at j what X · W holds at row
    T·5000 + j₀, column j₁. -/
theorem block_entry (X : (⟨S100000x128, .f32⟩ : BufTy).Contents (Elt Ideal)) (W : (⟨S128x64, .f32⟩ : BufTy).Contents (Elt Ideal))
    (x0 : Vec Ideal S5000x128 .f32) (x1 : Vec Ideal S128x64 .f32) (T : ℕ)
    (hx0 : ∀ (p : Fin 5000) (k : Fin 128) (r : Fin 100000), r.val = T * 5000 + p.val → x0 (ix2 p k) = X (ix2 r k))
    (hx1 : ∀ (k : Fin 128) (q : Fin 64), x1 (ix2 k q) = W (ix2 k q))
    (j : S5000x64.Idx) (i : S100000x64.Idx) (hi0 : (i 0).val = T * 5000 + (j 0).val) (hi1 : (i 1).val = (j 1).val) :
    k2_pay1 x0 x1 j = Cert.Gcn.lin2 X W i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [pay_apply, lin_apply]
  exact Finset.sum_congr rfl fun k _ => by rw [hx0 p k r hi0, hx1 k s]

/-! ## The blocks' places -/

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the region finds them. -/
theorem flushed_eq (c : Dev nD) (t : Fin cfg2.N) :
    (dat2 V c).flushed 2 t = ((cfg2.win 2).blk t).view.read (Elt Ideal) (Cert.Gcn.lin2 (V c main_v47) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (iblk2 V c 0 t) (iblk2 V c 1 t) j = Cert.Gcn.lin2 (V c main_v47) (V c main_arg4) (((cfg2.win 2).blk t).view.emb j)
  refine block_entry (V c main_v47) (V c main_arg4) (iblk2 V c 0 t) (iblk2 V c 1 t) t.val ?_ ?_ j _ ?_ ?_
  · intro p k r hr
    show V c main_v47 (((cfg2.win 0).blk t).view.emb (ix2 p k)) = V c main_v47 (ix2 r k)
    refine congrArg (V c main_v47) (funext fun a => Fin.ext ?_)
    match a with
    | ⟨0, _⟩ => show win2_0.index t (0 : Fin 2) * 5000 + 1 * p.val = r.val; omega
    | ⟨1, _⟩ => show win2_0.index t (1 : Fin 2) * 128 + 1 * k.val = k.val; omega
  · intro k q
    show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  · show win2_2.index t (0 : Fin 2) * 5000 + 1 * (j 0).val = t.val * 5000 + (j 0).val; omega
  · show win2_2.index t (1 : Fin 2) * 64 + 1 * (j 1).val = (j 1).val; omega

/-- An index of the result is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Row r of the result is in the block of point r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  have ht : (i 0).val / 5000 < grid2.N := by omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- After the region the result array is the product of the two arrays the region found. -/
theorem final (c : Dev nD) : (dat2 V c).arrAt 2 cfg2.N = Cert.Gcn.lin2 (V c main_v47) (V c main_arg4) :=
  (dat2 V c).arrAt_eq_of_cover 2 _ (fun t _ => flushed_eq V c t) cover

end Cert.KernelIdeal.Reg2

end
-- ==== Proof.Reg3.lean ====
/-
  Region 3 of the kernel: layer 2's bias and max(·, 0), twenty blocks of 5000 nodes.

  A grid point t loads rows 5000 t … 5000 t + 4999 of the aggregated features and the bias laid as a [1, 64] row, adds
  the row to every loaded row, takes the maximum with 0, and writes the block back to the same rows of the result.  Entry (p, q) of
  the block is max(a (5000 t + p, q) + b q, 0): the same entry of the bias added over all nodes at once.  The
  twenty blocks cover every row.
-/
import proofs.«165101_j81174881894904_1_alg».proof.Proof.Gen.KernelIdeal.Frame
import proofs.«165101_j81174881894904_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Reg3

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## A block's entry and the whole array's entry -/

/-- The block's entry (p, q): the loaded entry plus the row's entry q, against 0. -/
theorem pay_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) (Scalar.ofBits .f32 0x00000000#32 : Ideal .f32) := by
  unfold k3_pay1
  show max (shapeCast S5000x64 x0 _ (ix2 p q)
      + broadcastTo S5000x64 (shapeCast S1x64 x1 _) _ (ix2 p q)) (Scalar.ofBits .f32 0x00000000#32 : Ideal .f32) = _
  rw [shapeCast_self, shapeCast_self, broadcastTo_1b_ab_apply]

/-- The bias added over all nodes at once, against 0, at (r, s). -/
theorem whole_apply (X : (⟨S100000x64, .f32⟩ : BufTy).Contents (Elt Ideal)) (b : (⟨S64, .f32⟩ : BufTy).Contents (Elt Ideal))
    (r : Fin 100000) (s : Fin 64) :
    Cert.Gcn.relu2 (Cert.Gcn.bias2 X b) (ix2 r s) = max (X (ix2 r s) + b (ix1 s)) (Scalar.ofBits .f32 0x00000000#32 : Ideal .f32) := by
  unfold Cert.Gcn.relu2 Cert.Gcn.bias2
  show max (X (ix2 r s) + broadcastInDim S100000x64 ![0, 1] Cert.ReferenceIdeal.Facts₀.bcast_S1x64_S100000x64_0_1
      (broadcastInDim S1x64 ![1] Cert.ReferenceIdeal.Facts₀.bcast_S64_S1x64_1 b) (ix2 r s)) (Scalar.ofBits .f32 0x00000000#32 : Ideal .f32) = _
  rw [broadcastInDim_apply _ Cert.ReferenceIdeal.Facts₀.bcast_S1x64_S100000x64_0_1 _ (ix2 r s) (ix2 (0 : Fin 1) s) (fun a => match a with
      | ⟨0, _⟩ => by show 0 = if (1 : Nat) = 1 then 0 else r.val; rw [if_pos rfl]
      | ⟨1, _⟩ => by show s.val = if (64 : Nat) = 1 then 0 else s.val; rw [if_neg (by decide)]),
    broadcastInDim_apply _ Cert.ReferenceIdeal.Facts₀.bcast_S64_S1x64_1 b (ix2 (0 : Fin 1) s) (ix1 s) (fun a => match a with
      | ⟨0, _⟩ => by show s.val = if (64 : Nat) = 1 then 0 else s.val; rw [if_neg (by decide)])]

/-- A block whose rows are rows T·5000 … of X, with the bias b laid as a row, holds at j what the whole array holds
    at row T·5000 + j₀, column j₁. -/
theorem block_entry (X : (⟨S100000x64, .f32⟩ : BufTy).Contents (Elt Ideal)) (b : (⟨S64, .f32⟩ : BufTy).Contents (Elt Ideal))
    (x0 : Vec Ideal S5000x64 .f32) (x1 : Vec Ideal S1x64 .f32) (T : ℕ)
    (hx0 : ∀ (p : Fin 5000) (q : Fin 64) (r : Fin 100000), r.val = T * 5000 + p.val → x0 (ix2 p q) = X (ix2 r q))
    (hx1 : ∀ (q : Fin 64), x1 (ix2 (0 : Fin 1) q) = b (ix1 q))
    (j : S5000x64.Idx) (i : S100000x64.Idx) (hi0 : (i 0).val = T * 5000 + (j 0).val) (hi1 : (i 1).val = (j 1).val) :
    k3_pay1 x0 x1 j = Cert.Gcn.relu2 (Cert.Gcn.bias2 X b) i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [pay_apply, whole_apply, hx0 p s r hi0, hx1 s]

/-! ## The blocks' places -/

theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function of the arrays as the region finds them, the
    region's second array being the bias b cast to a row. -/
theorem flushed_eq (c : Dev nD) (b : (⟨S64, .f32⟩ : BufTy).Contents (Elt Ideal))
    (hb : ∀ q : Fin 64, V c main_v62 (ix2 (0 : Fin 1) q) = b (ix1 q)) (t : Fin cfg3.N) :
    (dat3 V c).flushed 2 t = ((cfg3.win 2).blk t).view.read (Elt Ideal) (Cert.Gcn.relu2 (Cert.Gcn.bias2 (V c main_v61) b)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  show k3_pay1 (iblk3 V c 0 t) (iblk3 V c 1 t) j = Cert.Gcn.relu2 (Cert.Gcn.bias2 (V c main_v61) b) (((cfg3.win 2).blk t).view.emb j)
  refine block_entry (V c main_v61) b (iblk3 V c 0 t) (iblk3 V c 1 t) t.val ?_ ?_ j _ ?_ ?_
  · intro p q r hr
    show V c main_v61 (((cfg3.win 0).blk t).view.emb (ix2 p q)) = V c main_v61 (ix2 r q)
    refine congrArg (V c main_v61) (funext fun a => Fin.ext ?_)
    match a with
    | ⟨0, _⟩ => show win3_0.index t (0 : Fin 2) * 5000 + 1 * p.val = r.val; omega
    | ⟨1, _⟩ => show win3_0.index t (1 : Fin 2) * 64 + 1 * q.val = q.val; omega
  · intro q
    refine Eq.trans ?_ (hb q)
    show V c main_v62 (((cfg3.win 1).blk t).view.emb (ix2 (0 : Fin 1) q)) = V c main_v62 (ix2 (0 : Fin 1) q)
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  · show win3_2.index t (0 : Fin 2) * 5000 + 1 * (j 0).val = t.val * 5000 + (j 0).val; omega
  · show win3_2.index t (1 : Fin 2) * 64 + 1 * (j 1).val = (j 1).val; omega

/-- An index of the result is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- Row r of the result is in the block of point r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  have ht : (i 0).val / 5000 < grid3.N := by omega
  obtain ⟨-, -, -, -, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

/-- After the region the result array is the bias added, against 0, over all nodes, the bias being the vector whose
    row the region found in its second array. -/
theorem final (c : Dev nD) (b : (⟨S64, .f32⟩ : BufTy).Contents (Elt Ideal))
    (hb : ∀ q : Fin 64, V c main_v62 (ix2 (0 : Fin 1) q) = b (ix1 q)) :
    (dat3 V c).arrAt 2 cfg3.N = Cert.Gcn.relu2 (Cert.Gcn.bias2 (V c main_v61) b) :=
  (dat3 V c).arrAt_eq_of_cover 2 _ (fun t _ => flushed_eq V c b hb t) cover

end Cert.KernelIdeal.Reg3

end
-- ==== Proof.Reg4.lean ====
/-
  Region 4 of the kernel: the transform x · W of layer 3, twenty blocks of 5000 nodes.

  A grid point t loads rows 5000 t … 5000 t + 4999 of x and the whole of W, and writes their product to the same rows
  of the result.  An entry of that block is the sum over k of x (5000 t + p, k) · W (k, q): the entry
  (5000 t + p, q) of the product of the whole arrays.  The twenty blocks cover every row, so after the region the
  result array is x · W.
-/
import proofs.«165101_j81174881894904_1_alg».proof.Proof.Gen.KernelIdeal.Frame
import proofs.«165101_j81174881894904_1_alg».proof.Proof.Spec
import proofs.«165101_j81174881894904_1_alg».proof.Proof.LibMatmul2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg4

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The two products' free axes -/

theorem blk_lhs0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem blk_rhs1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl
theorem all_lhs0 (i : S100000x32.Idx) (q : Cert.ReferenceIdeal.dot_S100000x64_S64x32_S100000x32_1_0_0_1_n_n.contr.Idx) : (Cert.ReferenceIdeal.dot_S100000x64_S64x32_S100000x32_1_0_0_1_n_n.lhsIdx i q 0).val = (i 0).val := by
  unfold DotDims.lhsIdx
  rw [dif_neg (show ¬(0 : Fin S100000x64.rank) ∈ Cert.ReferenceIdeal.dot_S100000x64_S64x32_S100000x32_1_0_0_1_n_n.lhsBatch by decide), dif_pos (show (0 : Fin S100000x64.rank) ∈ Cert.ReferenceIdeal.dot_S100000x64_S64x32_S100000x32_1_0_0_1_n_n.lhsNonContracting by decide)]
  rfl
theorem all_rhs1 (i : S100000x32.Idx) (q : Cert.ReferenceIdeal.dot_S100000x64_S64x32_S100000x32_1_0_0_1_n_n.contr.Idx) : (Cert.ReferenceIdeal.dot_S100000x64_S64x32_S100000x32_1_0_0_1_n_n.rhsIdx i q 1).val = (i 1).val := by
  unfold DotDims.rhsIdx
  rw [dif_neg (show ¬(1 : Fin S64x32.rank) ∈ Cert.ReferenceIdeal.dot_S100000x64_S64x32_S100000x32_1_0_0_1_n_n.rhsBatch by decide), dif_pos (show (1 : Fin S64x32.rank) ∈ Cert.ReferenceIdeal.dot_S100000x64_S64x32_S100000x32_1_0_0_1_n_n.rhsNonContracting by decide)]
  rfl

/-! ## A block's entry and the whole product's entry -/

/-- The block's entry (p, q): the sum over k of the loaded rows' (p, k) times the weights' (k, q); the change of float
    format on the way into the product is the identity on extended reals. -/
theorem pay_apply (x0 : Vec Ideal S5000x64 .f32) (x1 : Vec Ideal S64x32 .f32) (p : Fin 5000) (q : Fin 32) :
    k4_pay1 x0 x1 (ix2 p q) = ∑ k : Fin 64, x0 (ix2 p k) * x1 (ix2 k q) := by
  unfold k4_pay1
  refine (LibMatmul2.matmul_zero_apply dot_S5000x64_S64x32_S5000x32_1_0_0_1_n_n rfl rfl rfl rfl blk_lhs0 blk_rhs1 none _ _ p q).trans ?_
  refine Finset.sum_congr rfl fun k _ => ?_
  show shapeCast S5000x64 x0 _ (ix2 p k) * x1 (ix2 k q) = _
  rw [shapeCast_self]

/-- The whole product's entry (r, q). -/
theorem lin_apply (X : (⟨S100000x64, .f32⟩ : BufTy).Contents (Elt Ideal)) (W : (⟨S64x32, .f32⟩ : BufTy).Contents (Elt Ideal))
    (r : Fin 100000) (q : Fin 32) :
    Cert.Gcn.lin3 X W (ix2 r q) = ∑ k : Fin 64, X (ix2 r k) * W (ix2 k q) := by
  unfold Cert.Gcn.lin3
  exact LibMatmul2.dotGeneral_apply Cert.ReferenceIdeal.dot_S100000x64_S64x32_S100000x32_1_0_0_1_n_n rfl rfl rfl rfl all_lhs0 all_rhs1 none X W r q

/-- A block whose rows are rows T·5000 … of X, against the whole of W, holds at j what X · W holds at row
    T·5000 + j₀, column j₁. -/
theorem block_entry (X : (⟨S100000x64, .f32⟩ : BufTy).Contents (Elt Ideal)) (W : (⟨S64x32, .f32⟩ : BufTy).Contents (Elt Ideal))
    (x0 : Vec Ideal S5000x64 .f32) (x1 : Vec Ideal S64x32 .f32) (T : ℕ)
    (hx0 : ∀ (p : Fin 5000) (k : Fin 64) (r : Fin 100000), r.val = T * 5000 + p.val → x0 (ix2 p k) = X (ix2 r k))
    (hx1 : ∀ (k : Fin 64) (q : Fin 32), x1 (ix2 k q) = W (ix2 k q))
    (j : S5000x32.Idx) (i : S100000x32.Idx) (hi0 : (i 0).val = T * 5000 + (j 0).val) (hi1 : (i 1).val = (j 1).val) :
    k4_pay1 x0 x1 j = Cert.Gcn.lin3 X W i := by
  obtain ⟨p, q, rfl⟩ : ∃ (p : Fin 5000) (q : Fin 32), j = ix2 p q := ⟨j 0, j 1, eq_ix2 j⟩
  obtain ⟨r, s, rfl⟩ : ∃ (r : Fin 100000) (s : Fin 32), i = ix2 r s := ⟨i 0, i 1, eq_ix2 i⟩
  have hs : s = q := Fin.ext hi1
  subst hs
  rw [pay_apply, lin_apply]
  exact Finset.sum_congr rfl fun k _ => by rw [hx0 p k r hi0, hx1 k s]

/-! ## The blocks' places -/

theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the arrays as the region finds them. -/
theorem flushed_eq (c : Dev nD) (t : Fin cfg4.N) :
    (dat4 V c).flushed 2 t = ((cfg4.win 2).blk t).view.read (Elt Ideal) (Cert.Gcn.lin3 (V c main_v63) (V c main_arg6)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x32) hz]
  obtain ⟨e0, e1, e2, e3, e4, e5⟩ := idx_facts t
  funext j
  show k4_pay1 (iblk4 V c 0 t) (iblk4 V c 1 t) j = Cert.Gcn.lin3 (V c main_v63) (V c main_arg6) (((cfg4.win 2).blk t).view.emb j)
  refine block_entry (V c main_v63) (V c main_arg6) (iblk4 V c 0 t) (iblk4 V c 1 t) t.val ?_ ?_ j _ ?_ ?_
  · intro p k r hr
    show V c main_v63 (((cfg4.win 0).blk t).view.emb (ix2 p k)) = V c main_v63 (ix2 r k)
    refine congrArg (V c main_v63) (funext fun a => Fin.ext ?_)
    match a with
    | ⟨0, _⟩ => show win4_0.index t (0 : Fin 2) * 5000 + 1 * p.val = r.val; omega
    | ⟨1, _⟩ => show win4_0.index t (1 : Fin 2) * 64 + 1 * k.val = k.val; omega
  · intro k q
    show V c main_arg6 (((cfg4.win 1).blk t).view.emb (ix2 k q)) = V c main_arg6 (ix2 k q)
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 32 + 1 * q.val = q.val; omega
  · show win4_2.index t (0 : Fin 2) * 5000 + 1 * (j 0).val = t.val * 5000 + (j 0).val; omega
  · show win4_2.index t (1 : Fin 2) * 32 + 1 * (j 1).val = (j 1).val; omega

/-- An index of the result is in point t's block iff each coordinate is in the block's range on its axis. -/
theorem mem_blk (t : Fin cfg4.N) (i : S100000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v64).slice (win4_2.rect t)).set ↔ _
  rw [View.set_slice_whole, Rect.mem_set_unit]
  exact Iff.rfl

/-- Row r of the result is in the block of point r / 5000. -/
theorem cover (i : S100000x32.Idx) : ∃ t : Fin cfg4.N, (cfg4.win 2).flush t = true ∧ i ∈ ((cfg4.win 2).blk t).view.set := by
  have hi0 : (i 0).val < 100000 := (i 0).isLt
  have hi1 : (i 1).val < 32 := (i 1).isLt
  have hN : grid4.N = 20 := N_4
  have ht : (i 0).val / 5000 < grid4.N := by omega
  obtain ⟨-, -, -, -, e4, e5⟩ := idx_facts ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 32 ≤ (i 1).val ∧ (i 1).val < win4_2.index ⟨(i 0).val / 5000, ht⟩ (1 : Fin 2) * 32 + 32
    rw [e5]; omega

/-- After the region the result array is the product of the two arrays the region found. -/
theorem final (c : Dev nD) : (dat4 V c).arrAt 2 cfg4.N = Cert.Gcn.lin3 (V c main_v63) (V c main_arg6) :=
  (dat4 V c).arrAt_eq_of_cover 2 _ (fun t _ => flushed_eq V c t) cover

end Cert.KernelIdeal.Reg4

end
-- ==== Proof.Reg5.lean ====
/-
  Region 5 of the kernel: layer 3's bias, twenty blocks of 5000 nodes.

  A grid point t loads rows 5000 t … 5000 t + 4999 of the aggregated features and the bias laid as a [1, 32] row, adds
  the row to every loaded row and writes the block back to the same rows of the result.  Entry (p, q) of
  the block is a (5000 t + p, q) + b q: the same entry of the bias added over all nodes at once.  The
  twenty blocks cover every row.
-/
import proofs.«165101_j81174881894904_1_alg».proof.Proof.Gen.KernelIdeal.Frame
import proofs.«165101_j81174881894904_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Reg5

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## A block's entry and the whole array's entry -/

/-- The block's entry (p, q): the loaded entry plus the row's entry q. -/
theorem pay_apply (x0 : Vec Ideal S5000x32 .f32) (x1 : Vec Ideal S1x32 .f32) (p : Fin 5000) (q : Fin 32) :
    k5_pay1 x0 x1 (ix2 p q) = x0 (ix2 p q) + x1 (ix2 (0 : Fin 1) q) := by
  unfold k5_pay1
  show shapeCast S5000x32 x0 _ (ix2 p q)
      + broadcastTo S5000x32 (shapeCast S1x32 x1 _) _ (ix2 p q) = _
  rw [shapeCast_self, shapeCast_self, broadcastTo_1b_ab_apply]

/-- The bias added over all nodes at once, at (r, s). -/
theorem whole_apply (X : (⟨S100000x32, .f32⟩ : BufTy).Contents (Elt Ideal)) (b : (⟨S32, .f32⟩ : BufTy).Contents (Elt Ideal))
    (r : Fin 100000) (s : Fin 32) :
    Cert.Gcn.bias3 X b (ix2 r s) = X (ix2 r s) + b (ix1 s) := by
  unfold Cert.Gcn.bias3
  show X (ix2 r s) + broadcastInDim S100000x32 ![0, 1] Cert.ReferenceIdeal.Facts₀.bcast_S1x32_S100000x32_0_1
      (broadcastInDim S1x32 ![1] Cert.ReferenceIdeal.Facts₀.bcast_S32_S1x32_1 b) (ix2 r s) = _
  rw [broadcastInDim_apply _ Cert.ReferenceIdeal.Facts₀.bcast_S1x32_S100000x32_0_1 _ (ix2 r s) (ix2 (0 : Fin 1) s) (fun a => match a with
      | ⟨0, _⟩ => by show 0 = if (1 : Nat) = 1 then 0 else r.val; rw [if_pos rfl]
      | ⟨1, _⟩ => by show s.val = if (32 : Nat) = 1 then 0 else s.val; rw [if_neg (by decide)]),
    broadcastInDim_apply _ Cert.ReferenceIdeal.Facts₀.bcast_S32_S1x32_1 b (ix2 (0 : Fin 1) s) (ix1 s) (fun a => match a with
      | ⟨0, _⟩ => by show s.val = if (32 : Nat) = 1 then 0 else s.val; rw [if_neg (by decide)])]

/-- A block whose rows are rows T·5000 … of X, with the bias b laid as a row, holds at j what the whole array holds
    at row T·5000 + j₀, column j₁. -/
theorem block_entry (X : (⟨S100000x32, .f32⟩ : BufTy).Contents (Elt Ideal)) (b : (⟨S32, .f32⟩ : BufTy).Contents (Elt Ideal))
    (x0 : Vec Ideal S5000x32 .f32) (x1 : Vec Ideal S1x32 .f32) (T : ℕ)
    (hx0 : ∀ (p : Fin 5000) (q : Fin 32) (r : Fin 100000), r.val = T * 5000 + p.val → x0 (ix2 p q) = X (ix2 r q))
    (hx1 : ∀ (q : Fin 32), x1 (ix2 (0 : Fin 1) q) = b (ix1 q))
    (j : S5000x32.Idx) (i : S100000x32.Idx) (hi0 : (i 0).val = T * 5000 + (j 0).val) (hi1 : (i 1).val = (j 1).val) :
    k5_pay1 x0 x1 j = Cert.Gcn.bias3 X b i := by
  obtain ⟨p, q, rfl⟩ : ∃ (p : Fin 5000) (q : Fin 32), j = ix2 p q := ⟨j 0, j 1, eq_ix2 j⟩
  obtain ⟨r, s, rfl⟩ : ∃ (r : Fin 100000) (s : Fin 32), i = ix2 r s := ⟨i 0, i 1, eq_ix2 i⟩
  have hs : s = q := Fin.ext hi1
  subst hs
  rw [pay_apply, whole_apply, hx0 p s r hi0, hx1 s]

/-! ## The blocks' places -/

theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array function of the arrays as the region finds them, the
    region's second array being the bias b cast to a row. -/
theorem flushed_eq (c : Dev nD) (b : (⟨S32, .f32⟩ : BufTy).Contents (Elt Ideal))
    (hb : ∀ q : Fin 32, V c main_v78 (ix2 (0 : Fin 1) q) = b (ix1 q)) (t : Fin cfg5.N) :
    (dat5 V c).flushed 2 t = ((cfg5.win 2).blk t).view.read (Elt Ideal) (Cert.Gcn.bias3 (V c main_v77) b) := by
  show (cfg5.win 2).cut (grid5.coords t) ((dat5 V c).after 2 t) = _
  rw [after5_2]
  unfold out5_2
  rw [View.canon_unit_zero hz]
  simp only [View.ld_unit_zero (S := S5000x32) hz, View.ld_unit_zero (S := S1x32) hz]
  obtain ⟨e0, e1, e2, e3, e4, e5⟩ := idx_facts t
  funext j
  show k5_pay1 (iblk5 V c 0 t) (iblk5 V c 1 t) j = Cert.Gcn.bias3 (V c main_v77) b (((cfg5.win 2).blk t).view.emb j)
  refine block_entry (V c main_v77) b (iblk5 V c 0 t) (iblk5 V c 1 t) t.val ?_ ?_ j _ ?_ ?_
  · intro p q r hr
    show V c main_v77 (((cfg5.win 0).blk t).view.emb (ix2 p q)) = V c main_v77 (ix2 r q)
    refine congrArg (V c main_v77) (funext fun a => Fin.ext ?_)
    match a with
    | ⟨0, _⟩ => show win5_0.index t (0 : Fin 2) * 5000 + 1 * p.val = r.val; omega
    | ⟨1, _⟩ => show win5_0.index t (1 : Fin 2) * 32 + 1 * q.val = q.val; omega
  · intro q
    refine Eq.trans ?_ (hb q)
    show V c main_v78 (((cfg5.win 1).blk t).view.emb (ix2 (0 : Fin 1) q)) = V c main_v78 (ix2 (0 : Fin 1) q)
    refine congrArg (V c main_v78) (funext fun a => Fin.ext ?_)
    match a with
    | ⟨0, _⟩ => show win5_1.index t (0 : Fin 2) * 1 + 1 * 0 = 0; omega
    | ⟨1, _⟩ => show win5_1.index t (1 : Fin 2) * 32 + 1 * q.val = q.val; omega
  · show win5_2.index t (0 : Fin 2) * 5000 + 1 * (j 0).val = t.val * 5000 + (j 0).val; omega
  · show win5_2.index t (1 : Fin 2) * 32 + 1 * (j 1).val = (j 1).val; omega

/-- An index of the result is in point t's block iff each coordinate is in the block's range on its axis. -/
theorem mem_blk (t : Fin cfg5.N) (i : S100000x32.Idx) :
    i ∈ ((cfg5.win 2).blk t).view.set ↔ ∀ a : Fin 2, win5_2.index t a * S5000x32.size a ≤ (i a).val ∧ (i a).val < win5_2.index t a * S5000x32.size a + S5000x32.size a := by
  show i ∈ ((View.whole main_v79).slice (win5_2.rect t)).set ↔ _
  rw [View.set_slice_whole, Rect.mem_set_unit]
  exact Iff.rfl

/-- Row r of the result is in the block of point r / 5000. -/
theorem cover (i : S100000x32.Idx) : ∃ t : Fin cfg5.N, (cfg5.win 2).flush t = true ∧ i ∈ ((cfg5.win 2).blk t).view.set := by
  have hi0 : (i 0).val < 100000 := (i 0).isLt
  have hi1 : (i 1).val < 32 := (i 1).isLt
  have hN : grid5.N = 20 := N_5
  have ht : (i 0).val / 5000 < grid5.N := by omega
  obtain ⟨-, -, -, -, e4, e5⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 32 ≤ (i 1).val ∧ (i 1).val < win5_2.index ⟨(i 0).val / 5000, ht⟩ (1 : Fin 2) * 32 + 32
    rw [e5]; omega

/-- After the region the result array is the bias added over all nodes, the bias being the vector whose
    row the region found in its second array. -/
theorem final (c : Dev nD) (b : (⟨S32, .f32⟩ : BufTy).Contents (Elt Ideal))
    (hb : ∀ q : Fin 32, V c main_v78 (ix2 (0 : Fin 1) q) = b (ix1 q)) :
    (dat5 V c).arrAt 2 cfg5.N = Cert.Gcn.bias3 (V c main_v77) b :=
  (dat5 V c).arrAt_eq_of_cover 2 _ (fun t _ => flushed_eq V c b hb t) cover

end Cert.KernelIdeal.Reg5

end
-- ==== Proof.LibTailWrites.lean ====
/- Host lines that write only "late" buffers.

   Every buffer a TensorCore names has a slot number.  In the programs at hand the argument arrays have the
   lowest slot numbers, the arrays a pipelined region works on come next, and every host line after the region
   writes a buffer with a still higher number.  So the statement "this line writes nothing below slot n" is
   all that is needed to know that a buffer below slot n keeps its contents across any number of such lines,
   and it is proved for a line by looking at the one buffer it writes. -/
import Idealize.ShloMosaic.Lib.Pipeline.FrameSuffix

noncomputable section

namespace Cert.TailLib

open Idealize.ShloMosaic

variable {τ : Topo} {sig : RefSig} {Val : EltTy → Type}

/-- The operation writes only TensorCore references whose slot number is at least `n`. -/
def WritesFrom (n : ℕ) (op : HloOp τ sig Val) : Prop :=
  ∀ b ∈ op.writes, ∃ y : Ref sig .tc, n ≤ y.idx.val ∧ b = Proc.devRef .tc y

/-- An operation whose only written buffer is the reference `y`, of slot number at least `n`. -/
theorem writesFrom_of_eq {n : ℕ} {op : HloOp τ sig Val} {y : Ref sig .tc}
    (e : op.writes = {Proc.devRef .tc y}) (h : n ≤ y.idx.val) : WritesFrom n op :=
  fun b hb => ⟨y, h, Finset.mem_singleton.mp (e ▸ hb)⟩

/-- Such an operation does not write a reference of a lower slot number: two references with different slot
    numbers are different, and different references are different buffers of the device. -/
theorem not_mem_writes {n : ℕ} {op : HloOp τ sig Val} (h : WritesFrom n op) {r : Ref sig .tc} (hr : r.idx.val < n) :
    Proc.devRef (τ := τ) .tc r ∉ op.writes := by
  intro hb
  obtain ⟨y, hy, e⟩ := h _ hb
  have hry : r = y := Proc.devRef_injective _ e
  subst hry
  omega

/-- Across stretches of such operations a reference of a lower slot number keeps its contents. -/
theorem after_flatten_low {n : ℕ} (opss : List (List (HloOp τ sig Val)))
    (h : ∀ ops ∈ opss, ops.Forall (WritesFrom n)) (V : Valuation τ sig Val) {r : Ref sig .tc} (hr : r.idx.val < n) :
    StableHlo.after opss.flatten V (Proc.devRef .tc r) = V (Proc.devRef .tc r) :=
  StableHlo.after_of_forall_not_mem _ _ fun op hop => by
    obtain ⟨ops, hops, hop'⟩ := List.mem_flatten.mp hop
    exact not_mem_writes ((List.forall_iff_forall_mem.mp (h ops hops)) op hop') hr

end Cert.TailLib

end
-- ==== Proof.LibStretchKeeps.lean ====
/-
  A stretch of host operations that writes only buffers of slot number at least `n` keeps every buffer below slot `n`.
-/
import proofs.«165101_j81174881894904_1_alg».proof.Proof.LibTailWrites
import Idealize.ShloMosaic.Lib.StableHlo.Run

noncomputable section

namespace Cert.TailLib

open Idealize.ShloMosaic

variable {τ : Topo} {sig : RefSig} {Val : EltTy → Type}

/-- Across one stretch of operations that write only slots from `n` on, a reference of a lower slot number keeps its
    contents. -/
theorem after_low {n : ℕ} (ops : List (HloOp τ sig Val)) (h : ops.Forall (WritesFrom n)) (V : Valuation τ sig Val)
    {r : Ref sig .tc} (hr : r.idx.val < n) :
    StableHlo.after ops V (Proc.devRef .tc r) = V (Proc.devRef .tc r) :=
  StableHlo.after_of_forall_not_mem _ _ fun op hop => not_mem_writes ((List.forall_iff_forall_mem.mp h) op hop) hr

/-- Decides `ops.Forall (WritesFrom n)` for a literal list of the builders' operations (the list unfolded first). -/
macro "writes_from" : tactic => `(tactic| (
  simp only [List.Forall]
  repeat' apply And.intro
  all_goals first
    | exact writesFrom_of_eq (StableHlo.nullary_writes ..) (by decide)
    | exact writesFrom_of_eq (StableHlo.unary_writes ..) (by decide)
    | exact writesFrom_of_eq (StableHlo.binary_writes ..) (by decide)
    | exact writesFrom_of_eq (StableHlo.ternary_writes ..) (by decide)
    | exact writesFrom_of_eq (StableHlo.reshape_writes ..) (by decide)))

end Cert.TailLib

end
-- ==== Proof.KFold.lean ====
/-
  The idealized kernel's final contents at the result buffer, as the three-layer function of the arguments.

  @main is twelve segments: three stretches of host operations that build the graph's lists and edge weights, then
  per layer a region computing x · W in blocks, a stretch of host operations that gathers, scales and scatter-adds the
  rows along the edges (and lays the layer's bias as a row), and a region adding the bias (with max(·, 0) in the first
  two layers).  Walking the boundaries in order: a host stretch's values are its operations applied to the contents at its
  entry; a region's result array is the whole-array function of the arrays it found; a stretch writes only buffers
  numbered from its first value on, and a region only its result, so the lists, the weights and the arguments stay as
  they were while later segments run.
-/
import proofs.«165101_j81174881894904_1_alg».proof.Proof.Gen.KernelIdeal.Frame
import proofs.«165101_j81174881894904_1_alg».proof.Proof.Spec
import proofs.«165101_j81174881894904_1_alg».proof.Proof.Reg0
import proofs.«165101_j81174881894904_1_alg».proof.Proof.Reg1
import proofs.«165101_j81174881894904_1_alg».proof.Proof.Reg2
import proofs.«165101_j81174881894904_1_alg».proof.Proof.Reg3
import proofs.«165101_j81174881894904_1_alg».proof.Proof.Reg4
import proofs.«165101_j81174881894904_1_alg».proof.Proof.Reg5
import proofs.«165101_j81174881894904_1_alg».proof.Proof.LibStretchKeeps
import Idealize.ShloMosaic.Lib.StableHlo.Run
import Idealize.ShloMosaic.Lib.ValueLayout
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Cert.TailLib Cert.Gcn

variable (m : (ℓ : Loc nD τ sig) → Buf (Elt Ideal) ℓ) (ρ : Dev nD → PrngReg) (c : Dev nD)

/-! ## Each stretch writes only buffers numbered from its first value on -/

theorem from0 : (hostOps0 : List (HloOp τ sig (Elt Ideal))).Forall (WritesFrom 8) := by unfold hostOps0; writes_from
theorem from0_1 : (hostOps0_1 : List (HloOp τ sig (Elt Ideal))).Forall (WritesFrom 29) := by unfold hostOps0_1; writes_from
theorem from0_2 : (hostOps0_2 : List (HloOp τ sig (Elt Ideal))).Forall (WritesFrom 32) := by unfold hostOps0_2; writes_from
theorem from1 : (hostOps1 : List (HloOp τ sig (Elt Ideal))).Forall (WritesFrom 52) := by unfold hostOps1; writes_from
theorem from3 : (hostOps3 : List (HloOp τ sig (Elt Ideal))).Forall (WritesFrom 71) := by unfold hostOps3; writes_from
theorem from5 : (hostOps5 : List (HloOp τ sig (Elt Ideal))).Forall (WritesFrom 90) := by unfold hostOps5; writes_from

/-! ## A region changes its result array only -/

theorem keepR0 (b : Ref sig .tc) (hb : b ≠ main_v32) :
    W4 m ρ c (Proc.devRef .tc b) = W3 m ρ c (Proc.devRef .tc b) := by
  by_cases h0 : b = main_arg0
  · subst h0; exact (W4_arr m ρ c 0).trans (((dat0 (V3 m ρ) c).arrAt_in 0 rfl _).trans (A_eq0 (V3 m ρ) c 0))
  by_cases h1 : b = main_arg2
  · subst h1; exact (W4_arr m ρ c 1).trans (((dat0 (V3 m ρ) c).arrAt_in 1 rfl _).trans (A_eq0 (V3 m ρ) c 1))
  exact W4_of_ne m ρ c b fun w => by
    match w with
    | ⟨0, _⟩ => exact fun e => h0 e.symm
    | ⟨1, _⟩ => exact fun e => h1 e.symm
    | ⟨2, _⟩ => exact fun e => hb e.symm

theorem keepR1 (b : Ref sig .tc) (hb : b ≠ main_v47) :
    W6 m ρ c (Proc.devRef .tc b) = W5 m ρ c (Proc.devRef .tc b) := by
  by_cases h0 : b = main_v45
  · subst h0; exact (W6_arr m ρ c 0).trans (((dat1 (V5 m ρ) c).arrAt_in 0 rfl _).trans (A_eq1 (V5 m ρ) c 0))
  by_cases h1 : b = main_v46
  · subst h1; exact (W6_arr m ρ c 1).trans (((dat1 (V5 m ρ) c).arrAt_in 1 rfl _).trans (A_eq1 (V5 m ρ) c 1))
  exact W6_of_ne m ρ c b fun w => by
    match w with
    | ⟨0, _⟩ => exact fun e => h0 e.symm
    | ⟨1, _⟩ => exact fun e => h1 e.symm
    | ⟨2, _⟩ => exact fun e => hb e.symm

theorem keepR2 (b : Ref sig .tc) (hb : b ≠ main_v48) :
    W7 m ρ c (Proc.devRef .tc b) = W6 m ρ c (Proc.devRef .tc b) := by
  by_cases h0 : b = main_v47
  · subst h0; exact (W7_arr m ρ c 0).trans (((dat2 (V6 m ρ) c).arrAt_in 0 rfl _).trans (A_eq2 (V6 m ρ) c 0))
  by_cases h1 : b = main_arg4
  · subst h1; exact (W7_arr m ρ c 1).trans (((dat2 (V6 m ρ) c).arrAt_in 1 rfl _).trans (A_eq2 (V6 m ρ) c 1))
  exact W7_of_ne m ρ c b fun w => by
    match w with
    | ⟨0, _⟩ => exact fun e => h0 e.symm
    | ⟨1, _⟩ => exact fun e => h1 e.symm
    | ⟨2, _⟩ => exact fun e => hb e.symm

theorem keepR3 (b : Ref sig .tc) (hb : b ≠ main_v63) :
    W9 m ρ c (Proc.devRef .tc b) = W8 m ρ c (Proc.devRef .tc b) := by
  by_cases h0 : b = main_v61
  · subst h0; exact (W9_arr m ρ c 0).trans (((dat3 (V8 m ρ) c).arrAt_in 0 rfl _).trans (A_eq3 (V8 m ρ) c 0))
  by_cases h1 : b = main_v62
  · subst h1; exact (W9_arr m ρ c 1).trans (((dat3 (V8 m ρ) c).arrAt_in 1 rfl _).trans (A_eq3 (V8 m ρ) c 1))
  exact W9_of_ne m ρ c b fun w => by
    match w with
    | ⟨0, _⟩ => exact fun e => h0 e.symm
    | ⟨1, _⟩ => exact fun e => h1 e.symm
    | ⟨2, _⟩ => exact fun e => hb e.symm

theorem keepR4 (b : Ref sig .tc) (hb : b ≠ main_v64) :
    W10 m ρ c (Proc.devRef .tc b) = W9 m ρ c (Proc.devRef .tc b) := by
  by_cases h0 : b = main_v63
  · subst h0; exact (W10_arr m ρ c 0).trans (((dat4 (V9 m ρ) c).arrAt_in 0 rfl _).trans (A_eq4 (V9 m ρ) c 0))
  by_cases h1 : b = main_arg6
  · subst h1; exact (W10_arr m ρ c 1).trans (((dat4 (V9 m ρ) c).arrAt_in 1 rfl _).trans (A_eq4 (V9 m ρ) c 1))
  exact W10_of_ne m ρ c b fun w => by
    match w with
    | ⟨0, _⟩ => exact fun e => h0 e.symm
    | ⟨1, _⟩ => exact fun e => h1 e.symm
    | ⟨2, _⟩ => exact fun e => hb e.symm

theorem keepR5 (b : Ref sig .tc) (hb : b ≠ main_v79) :
    W12 m ρ c (Proc.devRef .tc b) = W11 m ρ c (Proc.devRef .tc b) := by
  by_cases h0 : b = main_v77
  · subst h0; exact (W12_arr m ρ c 0).trans (((dat5 (V11 m ρ) c).arrAt_in 0 rfl _).trans (A_eq5 (V11 m ρ) c 0))
  by_cases h1 : b = main_v78
  · subst h1; exact (W12_arr m ρ c 1).trans (((dat5 (V11 m ρ) c).arrAt_in 1 rfl _).trans (A_eq5 (V11 m ρ) c 1))
  exact W12_of_ne m ρ c b fun w => by
    match w with
    | ⟨0, _⟩ => exact fun e => h0 e.symm
    | ⟨1, _⟩ => exact fun e => h1 e.symm
    | ⟨2, _⟩ => exact fun e => hb e.symm

/-! ## Buffers of low number across each boundary -/

theorem low3 (b : Ref sig .tc) (hb : b.idx.val < 8) : W3 m ρ c (Proc.devRef .tc b) = m ((c : Thread nD τ).loc b) :=
  (after_low hostOps0_2 from0_2 (W2 m ρ c) (by omega)).trans
    ((after_low hostOps0_1 from0_1 (W1 m ρ c) (by omega)).trans (after_low hostOps0 from0 (W0 m ρ c) hb))
theorem low4 (b : Ref sig .tc) (hb : b.idx.val < 51) : W4 m ρ c (Proc.devRef .tc b) = W3 m ρ c (Proc.devRef .tc b) :=
  keepR0 m ρ c b fun e => by subst e; exact absurd hb (by decide)
theorem low5 (b : Ref sig .tc) (hb : b.idx.val < 52) : W5 m ρ c (Proc.devRef .tc b) = W4 m ρ c (Proc.devRef .tc b) :=
  after_low hostOps1 from1 (W4 m ρ c) hb
theorem low6 (b : Ref sig .tc) (hb : b.idx.val < 67) : W6 m ρ c (Proc.devRef .tc b) = W5 m ρ c (Proc.devRef .tc b) :=
  keepR1 m ρ c b fun e => by subst e; exact absurd hb (by decide)
theorem low7 (b : Ref sig .tc) (hb : b.idx.val < 67) : W7 m ρ c (Proc.devRef .tc b) = W6 m ρ c (Proc.devRef .tc b) :=
  keepR2 m ρ c b fun e => by subst e; exact absurd hb (by decide)
theorem low8 (b : Ref sig .tc) (hb : b.idx.val < 71) : W8 m ρ c (Proc.devRef .tc b) = W7 m ρ c (Proc.devRef .tc b) :=
  after_low hostOps3 from3 (W7 m ρ c) hb
theorem low9 (b : Ref sig .tc) (hb : b.idx.val < 86) : W9 m ρ c (Proc.devRef .tc b) = W8 m ρ c (Proc.devRef .tc b) :=
  keepR3 m ρ c b fun e => by subst e; exact absurd hb (by decide)
theorem low10 (b : Ref sig .tc) (hb : b.idx.val < 86) : W10 m ρ c (Proc.devRef .tc b) = W9 m ρ c (Proc.devRef .tc b) :=
  keepR4 m ρ c b fun e => by subst e; exact absurd hb (by decide)

/-- The lists, the weights and the arguments, as region 0 finds them, are still there at layer 2's and layer 3's host
    stretches. -/
theorem graph7 (b : Ref sig .tc) (hb : b.idx.val < 51) : W7 m ρ c (Proc.devRef .tc b) = W3 m ρ c (Proc.devRef .tc b) :=
  (low7 m ρ c b (by omega)).trans ((low6 m ρ c b (by omega)).trans ((low5 m ρ c b (by omega)).trans (low4 m ρ c b hb)))
theorem graph10 (b : Ref sig .tc) (hb : b.idx.val < 51) : W10 m ρ c (Proc.devRef .tc b) = W3 m ρ c (Proc.devRef .tc b) :=
  (low10 m ρ c b (by omega)).trans ((low9 m ρ c b (by omega)).trans ((low8 m ρ c b (by omega)).trans (graph7 m ρ c b hb)))
theorem graph6 (b : Ref sig .tc) (hb : b.idx.val < 51) : W6 m ρ c (Proc.devRef .tc b) = W3 m ρ c (Proc.devRef .tc b) :=
  (low6 m ρ c b (by omega)).trans ((low5 m ρ c b (by omega)).trans (low4 m ρ c b hb))
theorem graph9 (b : Ref sig .tc) (hb : b.idx.val < 51) : W9 m ρ c (Proc.devRef .tc b) = W3 m ρ c (Proc.devRef .tc b) :=
  (low9 m ρ c b (by omega)).trans ((low8 m ρ c b (by omega)).trans (graph7 m ρ c b hb))

/-! ## Each stretch's values, from any contents at its entry -/

section Reads

variable (W : Valuation τ sig (Elt Ideal))

theorem srcs_read : after hostOps0 W (Proc.devRef .tc main_v3) = srcs (W (Proc.devRef .tc main_arg1)) := by
  after_results
  rfl

theorem tgts_read : after hostOps0 W (Proc.devRef .tc main_v6) = tgts (W (Proc.devRef .tc main_arg1)) := by
  after_results
  rfl

theorem pos_read : after hostOps0 W (Proc.devRef .tc main_v12)
    = cmpf .ogt (deg (tgts (W (Proc.devRef .tc main_arg1)))) (broadcastInDim S100000 ![] Facts₀.bcast_S_S100000 (constant S_ .f32 0x00000000#32)) := by
  after_results
  rfl

theorem rsqrt_read : after hostOps0 W (Proc.devRef .tc main_v15)
    = Host.rsqrt (maximumf (deg (tgts (W (Proc.devRef .tc main_arg1)))) (broadcastInDim S100000 ![] Facts₀.bcast_S_S100000 (constant S_ .f32 0x3F800000#32))) := by
  after_results
  rfl

theorem zero_read : after hostOps0 W (Proc.devRef .tc main_cst_3) = constant (F := Ideal) S_ .f32 0x00000000#32 := by
  after_results

theorem where_read : after hostOps0_1 W (Proc.devRef .tc main_v16)
    = select (W (Proc.devRef .tc main_v12)) (W (Proc.devRef .tc main_v15)) (broadcastInDim S100000 ![] Facts₀.bcast_S_S100000 (id (W (Proc.devRef .tc main_cst_3)))) := by
  after_results
  rfl

set_option maxHeartbeats 2000000 in
theorem weight_read : after hostOps0_2 W (Proc.devRef .tc main_v31)
    = mulf (F := Ideal) (φ := .f32) (Host.gather gather_S100000_S1700000x1_S1700000_n_0_n_n_0_1_1 (W (Proc.devRef .tc main_v16)) (wrap (F := Ideal) (W (Proc.devRef .tc main_v3))))
        (Host.gather gather_S100000_S1700000x1_S1700000_n_0_n_n_0_1_1 (W (Proc.devRef .tc main_v16)) (wrap (F := Ideal) (W (Proc.devRef .tc main_v6)))) := by
  after_results
  rfl

theorem agg1_read : after hostOps1 W (Proc.devRef .tc main_v45)
    = agg1 (W (Proc.devRef .tc main_v32)) (W (Proc.devRef .tc main_v3)) (W (Proc.devRef .tc main_v6)) (W (Proc.devRef .tc main_v31)) := by
  after_results
  rfl

/-- The layer's bias laid as a row: entry (0, q) is the bias's entry q. -/
theorem row1_read (q : Fin 128) : after hostOps1 W (Proc.devRef .tc main_v46) (ix2 (0 : Fin 1) q) = (W (Proc.devRef .tc main_arg3)) (ix1 q) := by
  have h : after hostOps1 W (Proc.devRef .tc main_v46) = shapeCast S1x128 (W (Proc.devRef .tc main_arg3)) Facts₀.shapeCasts_S128_S1x128 := by
    after_results
    rfl
  rw [h]
  exact shapeCast_a_1a_apply _ _ (0 : Fin 1) q

theorem agg2_read : after hostOps3 W (Proc.devRef .tc main_v61)
    = agg2 (W (Proc.devRef .tc main_v48)) (W (Proc.devRef .tc main_v3)) (W (Proc.devRef .tc main_v6)) (W (Proc.devRef .tc main_v31)) := by
  after_results
  rfl

/-- The layer's bias laid as a row: entry (0, q) is the bias's entry q. -/
theorem row2_read (q : Fin 64) : after hostOps3 W (Proc.devRef .tc main_v62) (ix2 (0 : Fin 1) q) = (W (Proc.devRef .tc main_arg5)) (ix1 q) := by
  have h : after hostOps3 W (Proc.devRef .tc main_v62) = shapeCast S1x64 (W (Proc.devRef .tc main_arg5)) Facts₀.shapeCasts_S64_S1x64 := by
    after_results
    rfl
  rw [h]
  exact shapeCast_a_1a_apply _ _ (0 : Fin 1) q

theorem agg3_read : after hostOps5 W (Proc.devRef .tc main_v77)
    = agg3 (W (Proc.devRef .tc main_v64)) (W (Proc.devRef .tc main_v3)) (W (Proc.devRef .tc main_v6)) (W (Proc.devRef .tc main_v31)) := by
  after_results
  rfl

/-- The layer's bias laid as a row: entry (0, q) is the bias's entry q. -/
theorem row3_read (q : Fin 32) : after hostOps5 W (Proc.devRef .tc main_v78) (ix2 (0 : Fin 1) q) = (W (Proc.devRef .tc main_arg7)) (ix1 q) := by
  have h : after hostOps5 W (Proc.devRef .tc main_v78) = shapeCast S1x32 (W (Proc.devRef .tc main_arg7)) Facts₀.shapeCasts_S32_S1x32 := by
    after_results
    rfl
  rw [h]
  exact shapeCast_a_1a_apply _ _ (0 : Fin 1) q

end Reads

/-! ## The graph's lists and weights at region 0's entry -/

theorem srcs3 : W3 m ρ c (Proc.devRef .tc main_v3) = srcs (m ((c : Thread nD τ).loc main_arg1)) :=
  (after_low hostOps0_2 from0_2 (W2 m ρ c) (by decide)).trans ((after_low hostOps0_1 from0_1 (W1 m ρ c) (by decide)).trans (srcs_read (W0 m ρ c)))

theorem tgts3 : W3 m ρ c (Proc.devRef .tc main_v6) = tgts (m ((c : Thread nD τ).loc main_arg1)) :=
  (after_low hostOps0_2 from0_2 (W2 m ρ c) (by decide)).trans ((after_low hostOps0_1 from0_1 (W1 m ρ c) (by decide)).trans (tgts_read (W0 m ρ c)))

/-- deg^(-1/2) or 0, per node: the select of the first stretch's comparison and reciprocal square root. -/
theorem dis2 : W2 m ρ c (Proc.devRef .tc main_v16) = dis (deg (tgts (m ((c : Thread nD τ).loc main_arg1)))) := by
  refine (where_read (W1 m ρ c)).trans ?_
  rw [show W1 m ρ c (Proc.devRef .tc main_v12) = _ from pos_read (W0 m ρ c), show W1 m ρ c (Proc.devRef .tc main_v15) = _ from rsqrt_read (W0 m ρ c),
    show W1 m ρ c (Proc.devRef .tc main_cst_3) = _ from zero_read (W0 m ρ c)]
  rfl

theorem weight3 : W3 m ρ c (Proc.devRef .tc main_v31) = weight (srcs (m ((c : Thread nD τ).loc main_arg1))) (tgts (m ((c : Thread nD τ).loc main_arg1))) := by
  have e3 : W2 m ρ c (Proc.devRef .tc main_v3) = srcs (m ((c : Thread nD τ).loc main_arg1)) :=
    (after_low hostOps0_1 from0_1 (W1 m ρ c) (r := main_v3) (by decide)).trans (srcs_read (W0 m ρ c))
  have e6 : W2 m ρ c (Proc.devRef .tc main_v6) = tgts (m ((c : Thread nD τ).loc main_arg1)) :=
    (after_low hostOps0_1 from0_1 (W1 m ρ c) (r := main_v6) (by decide)).trans (tgts_read (W0 m ρ c))
  refine (weight_read (W2 m ρ c)).trans ?_
  rw [dis2, e3, e6]
  rfl

/-! ## The walk -/

/-- After region 0: the first layer's transform of the input features. -/
theorem lin1_at4 : W4 m ρ c (Proc.devRef .tc main_v32) = lin1 (m ((c : Thread nD τ).loc main_arg0)) (m ((c : Thread nD τ).loc main_arg2)) := by
  refine (W4_arr m ρ c 2).trans ((Reg0.final (V3 m ρ) c).trans ?_)
  show lin1 (W3 m ρ c (Proc.devRef .tc main_arg0)) (W3 m ρ c (Proc.devRef .tc main_arg2)) = _
  rw [low3 m ρ c main_arg0 (by decide), low3 m ρ c main_arg2 (by decide)]

/-- The first layer's output. -/
abbrev act1 : (⟨S100000x128, .f32⟩ : BufTy).Contents (Elt Ideal) :=
  relu1 (bias1 (agg1 (lin1 (m ((c : Thread nD τ).loc main_arg0)) (m ((c : Thread nD τ).loc main_arg2))) (srcs (m ((c : Thread nD τ).loc main_arg1))) (tgts (m ((c : Thread nD τ).loc main_arg1))) (weight (srcs (m ((c : Thread nD τ).loc main_arg1))) (tgts (m ((c : Thread nD τ).loc main_arg1))))) (m ((c : Thread nD τ).loc main_arg3)))

theorem act1_at6 : W6 m ρ c (Proc.devRef .tc main_v47) = act1 m c := by
  have hagg : W5 m ρ c (Proc.devRef .tc main_v45)
      = agg1 (lin1 (m ((c : Thread nD τ).loc main_arg0)) (m ((c : Thread nD τ).loc main_arg2))) (srcs (m ((c : Thread nD τ).loc main_arg1))) (tgts (m ((c : Thread nD τ).loc main_arg1))) (weight (srcs (m ((c : Thread nD τ).loc main_arg1))) (tgts (m ((c : Thread nD τ).loc main_arg1)))) := by
    rw [show W5 m ρ c (Proc.devRef .tc main_v45) = _ from agg1_read (W4 m ρ c), lin1_at4, low4 m ρ c main_v3 (by decide), low4 m ρ c main_v6 (by decide), low4 m ρ c main_v31 (by decide),
      srcs3, tgts3, weight3]
  have hrow : ∀ q : Fin 128, V5 m ρ c main_v46 (ix2 (0 : Fin 1) q) = (m ((c : Thread nD τ).loc main_arg3)) (ix1 q) := fun q => by
    show W5 m ρ c (Proc.devRef .tc main_v46) (ix2 (0 : Fin 1) q) = _
    rw [show W5 m ρ c (Proc.devRef .tc main_v46) (ix2 (0 : Fin 1) q) = _ from row1_read (W4 m ρ c) q, low4 m ρ c main_arg3 (by decide), low3 m ρ c main_arg3 (by decide)]
  refine (W6_arr m ρ c 2).trans ((Reg1.final (V5 m ρ) c (m ((c : Thread nD τ).loc main_arg3)) hrow).trans ?_)
  show relu1 (bias1 (W5 m ρ c (Proc.devRef .tc main_v45)) (m ((c : Thread nD τ).loc main_arg3))) = _
  rw [hagg]

theorem lin2_at7 : W7 m ρ c (Proc.devRef .tc main_v48) = lin2 (act1 m c) (m ((c : Thread nD τ).loc main_arg4)) := by
  refine (W7_arr m ρ c 2).trans ((Reg2.final (V6 m ρ) c).trans ?_)
  show lin2 (W6 m ρ c (Proc.devRef .tc main_v47)) (W6 m ρ c (Proc.devRef .tc main_arg4)) = _
  rw [act1_at6, graph6 m ρ c main_arg4 (by decide), low3 m ρ c main_arg4 (by decide)]

/-- The second layer's output. -/
abbrev act2 : (⟨S100000x64, .f32⟩ : BufTy).Contents (Elt Ideal) :=
  relu2 (bias2 (agg2 (lin2 (act1 m c) (m ((c : Thread nD τ).loc main_arg4))) (srcs (m ((c : Thread nD τ).loc main_arg1))) (tgts (m ((c : Thread nD τ).loc main_arg1))) (weight (srcs (m ((c : Thread nD τ).loc main_arg1))) (tgts (m ((c : Thread nD τ).loc main_arg1))))) (m ((c : Thread nD τ).loc main_arg5)))

theorem act2_at9 : W9 m ρ c (Proc.devRef .tc main_v63) = act2 m c := by
  have hagg : W8 m ρ c (Proc.devRef .tc main_v61)
      = agg2 (lin2 (act1 m c) (m ((c : Thread nD τ).loc main_arg4))) (srcs (m ((c : Thread nD τ).loc main_arg1))) (tgts (m ((c : Thread nD τ).loc main_arg1))) (weight (srcs (m ((c : Thread nD τ).loc main_arg1))) (tgts (m ((c : Thread nD τ).loc main_arg1)))) := by
    rw [show W8 m ρ c (Proc.devRef .tc main_v61) = _ from agg2_read (W7 m ρ c), lin2_at7, graph7 m ρ c main_v3 (by decide), graph7 m ρ c main_v6 (by decide), graph7 m ρ c main_v31 (by decide),
      srcs3, tgts3, weight3]
  have hrow : ∀ q : Fin 64, V8 m ρ c main_v62 (ix2 (0 : Fin 1) q) = (m ((c : Thread nD τ).loc main_arg5)) (ix1 q) := fun q => by
    show W8 m ρ c (Proc.devRef .tc main_v62) (ix2 (0 : Fin 1) q) = _
    rw [show W8 m ρ c (Proc.devRef .tc main_v62) (ix2 (0 : Fin 1) q) = _ from row2_read (W7 m ρ c) q, graph7 m ρ c main_arg5 (by decide), low3 m ρ c main_arg5 (by decide)]
  refine (W9_arr m ρ c 2).trans ((Reg3.final (V8 m ρ) c (m ((c : Thread nD τ).loc main_arg5)) hrow).trans ?_)
  show relu2 (bias2 (W8 m ρ c (Proc.devRef .tc main_v61)) (m ((c : Thread nD τ).loc main_arg5))) = _
  rw [hagg]

theorem lin3_at10 : W10 m ρ c (Proc.devRef .tc main_v64) = lin3 (act2 m c) (m ((c : Thread nD τ).loc main_arg6)) := by
  refine (W10_arr m ρ c 2).trans ((Reg4.final (V9 m ρ) c).trans ?_)
  show lin3 (W9 m ρ c (Proc.devRef .tc main_v63)) (W9 m ρ c (Proc.devRef .tc main_arg6)) = _
  rw [act2_at9, graph9 m ρ c main_arg6 (by decide), low3 m ρ c main_arg6 (by decide)]

/-- After the last region the result buffer holds the network's output. -/
theorem out_at12 : W12 m ρ c (Proc.devRef .tc main_v79)
    = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hagg : W11 m ρ c (Proc.devRef .tc main_v77)
      = agg3 (lin3 (act2 m c) (m ((c : Thread nD τ).loc main_arg6))) (srcs (m ((c : Thread nD τ).loc main_arg1))) (tgts (m ((c : Thread nD τ).loc main_arg1))) (weight (srcs (m ((c : Thread nD τ).loc main_arg1))) (tgts (m ((c : Thread nD τ).loc main_arg1)))) := by
    rw [show W11 m ρ c (Proc.devRef .tc main_v77) = _ from agg3_read (W10 m ρ c), lin3_at10, graph10 m ρ c main_v3 (by decide), graph10 m ρ c main_v6 (by decide), graph10 m ρ c main_v31 (by decide),
      srcs3, tgts3, weight3]
  have hrow : ∀ q : Fin 32, V11 m ρ c main_v78 (ix2 (0 : Fin 1) q) = (m ((c : Thread nD τ).loc main_arg7)) (ix1 q) := fun q => by
    show W11 m ρ c (Proc.devRef .tc main_v78) (ix2 (0 : Fin 1) q) = _
    rw [show W11 m ρ c (Proc.devRef .tc main_v78) (ix2 (0 : Fin 1) q) = _ from row3_read (W10 m ρ c) q, graph10 m ρ c main_arg7 (by decide), low3 m ρ c main_arg7 (by decide)]
  refine (W12_arr m ρ c 2).trans ((Reg5.final (V11 m ρ) c (m ((c : Thread nD τ).loc main_arg7)) hrow).trans ?_)
  show bias3 (W11 m ρ c (Proc.devRef .tc main_v77)) (m ((c : Thread nD τ).loc main_arg7)) = _
  rw [hagg]
  rfl

end Cert.KernelIdeal.Fold

end
-- ==== Proof.SpecR.lean ====
/-
  The same three-layer graph convolution as Proof/Spec.lean's, spelt over the reference program's own shape names,
  dimension records and side conditions, and the proof that the two spellings are one function: the two programs
  print the same literal shapes and records under different names.
-/
import proofs.«165101_j81174881894904_1_alg».proof.Proof.Spec

noncomputable section

namespace Cert.GcnR

open Idealize.ShloMosaic Cert.ReferenceIdeal Cert.ReferenceIdeal.Facts₀

variable {F : FTy → Type} [FloatOps F]

/-- The sources (`r = 0`) or targets (`r = 1`) of the edges, followed by every node once. -/
def srcs (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

def tgts (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The number of list entries that target each node. -/
def deg (col : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- deg^(-1/2) where the degree is positive, 0 elsewhere. -/
def dis (d : (⟨S100000, .f32⟩ : BufTy).Contents (Elt F)) : (⟨S100000, .f32⟩ : BufTy).Contents (Elt F) :=
  select (cmpf .ogt d (broadcastInDim S100000 ![] bcast_S_S100000 (constant S_ .f32 0x00000000#32)))
    (Host.rsqrt (maximumf d (broadcastInDim S100000 ![] bcast_S_S100000 (constant S_ .f32 0x3F800000#32))))
    (broadcastInDim S100000 ![] bcast_S_S100000 (id (constant S_ .f32 0x00000000#32)))

/-- Node numbers as gather indices: a negative one counted from the end of the table, the list laid as a column. -/
def wrap (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The weight of each list entry: `dis` at its source times `dis` at its target. -/
def weight (row col : (⟨S1700000, .i32⟩ : BufTy).Contents (Elt F)) : (⟨S1700000, .f32⟩ : BufTy).Contents (Elt F) :=
  mulf (Host.gather gather_S100000_S1700000x1_S1700000_n_0_n_n_0_1_1 (dis (deg col)) (wrap row))
    (Host.gather gather_S100000_S1700000x1_S1700000_n_0_n_n_0_1_1 (dis (deg col)) (wrap col))

/-- Layer 1's aggregation: each node receives the weighted rows of `h` at the sources of the entries that target it. -/
def agg1 (h : (⟨S100000x128, .f32⟩ : BufTy).Contents (Elt F)) (row col : (⟨S1700000, .i32⟩ : BufTy).Contents (Elt F))
    (wt : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (mulf (Host.gather gather_S100000x128_S1700000x1_S1700000x128_1_0_n_n_0_1_1128 h (wrap row))
      (broadcastInDim S1700000x128 ![0, 1] bcast_S1700000x1_S1700000x128_0_1 (broadcastInDim S1700000x1 ![0] bcast_S1700000_S1700000x1_0 wt)))

/-- Layer 1's transform x · W, over all nodes at once. -/
def lin1 (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w

/-- Layer 1's bias, repeated over the nodes and added. -/
def bias1 (a : (⟨S100000x128, .f32⟩ : BufTy).Contents (Elt F)) (b : (⟨S128, .f32⟩ : BufTy).Contents (Elt F)) :
    (⟨S100000x128, .f32⟩ : BufTy).Contents (Elt F) :=
  addf a (broadcastInDim S100000x128 ![0, 1] bcast_S1x128_S100000x128_0_1
    (broadcastInDim S1x128 ![1] bcast_S128_S1x128_1 b))

/-- max(·, 0), entry by entry. -/
def relu1 (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- Layer 2's aggregation: each node receives the weighted rows of `h` at the sources of the entries that target it. -/
def agg2 (h : (⟨S100000x64, .f32⟩ : BufTy).Contents (Elt F)) (row col : (⟨S1700000, .i32⟩ : BufTy).Contents (Elt F))
    (wt : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 col)
    (mulf (Host.gather gather_S100000x64_S1700000x1_S1700000x64_1_0_n_n_0_1_164 h (wrap row))
      (broadcastInDim S1700000x64 ![0, 1] bcast_S1700000x1_S1700000x64_0_1 (broadcastInDim S1700000x1 ![0] bcast_S1700000_S1700000x1_0 wt)))

/-- Layer 2's transform x · W, over all nodes at once. -/
def lin2 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- Layer 2's bias, repeated over the nodes and added. -/
def bias2 (a : (⟨S100000x64, .f32⟩ : BufTy).Contents (Elt F)) (b : (⟨S64, .f32⟩ : BufTy).Contents (Elt F)) :
    (⟨S100000x64, .f32⟩ : BufTy).Contents (Elt F) :=
  addf a (broadcastInDim S100000x64 ![0, 1] bcast_S1x64_S100000x64_0_1
    (broadcastInDim S1x64 ![1] bcast_S64_S1x64_1 b))

/-- max(·, 0), entry by entry. -/
def relu2 (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- Layer 3's aggregation: each node receives the weighted rows of `h` at the sources of the entries that target it. -/
def agg3 (h : (⟨S100000x32, .f32⟩ : BufTy).Contents (Elt F)) (row col : (⟨S1700000, .i32⟩ : BufTy).Contents (Elt F))
    (wt : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 col)
    (mulf (Host.gather gather_S100000x32_S1700000x1_S1700000x32_1_0_n_n_0_1_132 h (wrap row))
      (broadcastInDim S1700000x32 ![0, 1] bcast_S1700000x1_S1700000x32_0_1 (broadcastInDim S1700000x1 ![0] bcast_S1700000_S1700000x1_0 wt)))

/-- Layer 3's transform x · W, over all nodes at once. -/
def lin3 (x : (⟨S100000x64, .f32⟩ : BufTy).Contents (Elt F)) (w : (⟨S64x32, .f32⟩ : BufTy).Contents (Elt F)) :
    (⟨S100000x32, .f32⟩ : BufTy).Contents (Elt F) :=
  Host.dotGeneral dot_S100000x64_S64x32_S100000x32_1_0_0_1_n_n none x w

/-- Layer 3's bias, repeated over the nodes and added. -/
def bias3 (a : (⟨S100000x32, .f32⟩ : BufTy).Contents (Elt F)) (b : (⟨S32, .f32⟩ : BufTy).Contents (Elt F)) :
    (⟨S100000x32, .f32⟩ : BufTy).Contents (Elt F) :=
  addf a (broadcastInDim S100000x32 ![0, 1] bcast_S1x32_S100000x32_0_1
    (broadcastInDim S1x32 ![1] bcast_S32_S1x32_1 b))

/-- The network's output as a function of the eight arguments. -/
def out (x : (⟨S100000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F))
    (w3 : (⟨S64x32, .f32⟩ : BufTy).Contents (Elt F)) (b3 : (⟨S32, .f32⟩ : BufTy).Contents (Elt F)) :
    (⟨S100000x32, .f32⟩ : BufTy).Contents (Elt F) :=
  bias3 (agg3 (lin3 (relu2 (bias2 (agg2 (lin2 (relu1 (bias1 (agg1 (lin1 x w1) (srcs e) (tgts e) (weight (srcs e) (tgts e))) b1)) w2)
    (srcs e) (tgts e) (weight (srcs e) (tgts e))) b2)) w3) (srcs e) (tgts e) (weight (srcs e) (tgts e))) b3

end Cert.GcnR

/-! ## The two spellings are one function -/

namespace Cert.GcnR

open Idealize.ShloMosaic Cert.ReferenceIdeal Cert.ReferenceIdeal.Facts₀

variable {F : FTy → Type} [FloatOps F]

theorem srcs_eq (e : (⟨S2x1600000, .i32⟩ : BufTy).Contents (Elt F)) : srcs e = Cert.Gcn.srcs e := rfl
theorem tgts_eq (e : (⟨S2x1600000, .i32⟩ : BufTy).Contents (Elt F)) : tgts e = Cert.Gcn.tgts e := rfl
theorem deg_eq (col : (⟨S1700000, .i32⟩ : BufTy).Contents (Elt F)) : deg col = Cert.Gcn.deg col := rfl
theorem dis_eq (d : (⟨S100000, .f32⟩ : BufTy).Contents (Elt F)) : dis d = Cert.Gcn.dis d := rfl
theorem wrap_eq (v : (⟨S1700000, .i32⟩ : BufTy).Contents (Elt F)) : wrap v = Cert.Gcn.wrap v := rfl
theorem weight_eq (row col : (⟨S1700000, .i32⟩ : BufTy).Contents (Elt F)) : weight row col = Cert.Gcn.weight row col := by
  unfold weight Cert.Gcn.weight
  rw [deg_eq, dis_eq, wrap_eq, wrap_eq]
  rfl

theorem agg1_eq (h : (⟨S100000x128, .f32⟩ : BufTy).Contents (Elt F)) (row col : (⟨S1700000, .i32⟩ : BufTy).Contents (Elt F)) (wt : (⟨S1700000, .f32⟩ : BufTy).Contents (Elt F)) :
    agg1 h row col wt = Cert.Gcn.agg1 h row col wt := by
  unfold agg1 Cert.Gcn.agg1
  rw [wrap_eq]
  rfl
theorem lin1_eq (x : (⟨S100000x256, .f32⟩ : BufTy).Contents (Elt F)) (w : (⟨S256x128, .f32⟩ : BufTy).Contents (Elt F)) : lin1 x w = Cert.Gcn.lin1 x w := rfl
theorem bias1_eq (a : (⟨S100000x128, .f32⟩ : BufTy).Contents (Elt F)) (b : (⟨S128, .f32⟩ : BufTy).Contents (Elt F)) : bias1 a b = Cert.Gcn.bias1 a b := rfl
theorem relu1_eq (a : (⟨S100000x128, .f32⟩ : BufTy).Contents (Elt F)) : relu1 a = Cert.Gcn.relu1 a := rfl

theorem agg2_eq (h : (⟨S100000x64, .f32⟩ : BufTy).Contents (Elt F)) (row col : (⟨S1700000, .i32⟩ : BufTy).Contents (Elt F)) (wt : (⟨S1700000, .f32⟩ : BufTy).Contents (Elt F)) :
    agg2 h row col wt = Cert.Gcn.agg2 h row col wt := by
  unfold agg2 Cert.Gcn.agg2
  rw [wrap_eq]
  rfl
theorem lin2_eq (x : (⟨S100000x128, .f32⟩ : BufTy).Contents (Elt F)) (w : (⟨S128x64, .f32⟩ : BufTy).Contents (Elt F)) : lin2 x w = Cert.Gcn.lin2 x w := rfl
theorem bias2_eq (a : (⟨S100000x64, .f32⟩ : BufTy).Contents (Elt F)) (b : (⟨S64, .f32⟩ : BufTy).Contents (Elt F)) : bias2 a b = Cert.Gcn.bias2 a b := rfl
theorem relu2_eq (a : (⟨S100000x64, .f32⟩ : BufTy).Contents (Elt F)) : relu2 a = Cert.Gcn.relu2 a := rfl

theorem agg3_eq (h : (⟨S100000x32, .f32⟩ : BufTy).Contents (Elt F)) (row col : (⟨S1700000, .i32⟩ : BufTy).Contents (Elt F)) (wt : (⟨S1700000, .f32⟩ : BufTy).Contents (Elt F)) :
    agg3 h row col wt = Cert.Gcn.agg3 h row col wt := by
  unfold agg3 Cert.Gcn.agg3
  rw [wrap_eq]
  rfl
theorem lin3_eq (x : (⟨S100000x64, .f32⟩ : BufTy).Contents (Elt F)) (w : (⟨S64x32, .f32⟩ : BufTy).Contents (Elt F)) : lin3 x w = Cert.Gcn.lin3 x w := rfl
theorem bias3_eq (a : (⟨S100000x32, .f32⟩ : BufTy).Contents (Elt F)) (b : (⟨S32, .f32⟩ : BufTy).Contents (Elt F)) : bias3 a b = Cert.Gcn.bias3 a b := rfl

theorem out_eq (x : (⟨S100000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F))
    (w3 : (⟨S64x32, .f32⟩ : BufTy).Contents (Elt F)) (b3 : (⟨S32, .f32⟩ : BufTy).Contents (Elt F)) :
    out x e w1 b1 w2 b2 w3 b3 = Cert.Gcn.out x e w1 b1 w2 b2 w3 b3 := by
  unfold out Cert.Gcn.out
  rw [srcs_eq, tgts_eq, weight_eq, lin1_eq, agg1_eq, bias1_eq, relu1_eq, lin2_eq, agg2_eq, bias2_eq, relu2_eq, lin3_eq, agg3_eq, bias3_eq]

end Cert.GcnR

end
-- ==== Proof.RefOut.lean ====
/-
  The idealized reference's result as the three-layer function of its arguments.

  The reference is the same network written with jax.numpy: the same host operations build the graph's lists and edge
  weights and gather, scale and scatter-add along the edges; each layer's transform is one product over all nodes, its
  bias is repeated over the nodes and added, and max(·, 0) follows in the first two layers.  Its @main is a straight
  line of host operations, read here in eight consecutive stretches: a stretch's values are its operations applied to
  the contents at its entry, and it writes only buffers numbered from its first value on, so the lists, the weights and
  the arguments stay as they were while later stretches run.
-/
import proofs.«165101_j81174881894904_1_alg».proof.Proof.RefRun
import proofs.«165101_j81174881894904_1_alg».proof.Proof.SpecR
import proofs.«165101_j81174881894904_1_alg».proof.Proof.LibStretchKeeps
import Idealize.ShloMosaic.Lib.StableHlo.Run
import Idealize.ShloMosaic.PureOps.Ideal

set_option maxRecDepth 16384

noncomputable section

namespace Cert.ReferenceIdeal.Out

open Cert.ReferenceIdeal Cert.ReferenceIdeal.Gen Cert.ReferenceIdeal.ValueP
open Idealize.ShloMosaic Idealize.ShloMosaic.TcCoe Idealize.SL.Sem Idealize.ShloMosaic.StableHlo
open Cert.TailLib Cert.GcnR

/-! ## Each stretch writes only buffers numbered from its first value on -/

theorem fromA : (opsA : List (HloOp τ sig (Elt Ideal))).Forall (WritesFrom 8) := by unfold opsA; writes_from
theorem fromB : (opsB : List (HloOp τ sig (Elt Ideal))).Forall (WritesFrom 29) := by unfold opsB; writes_from
theorem fromC : (opsC : List (HloOp τ sig (Elt Ideal))).Forall (WritesFrom 32) := by unfold opsC; writes_from
theorem fromD1 : (opsD1 : List (HloOp τ sig (Elt Ideal))).Forall (WritesFrom 51) := by unfold opsD1; writes_from
theorem fromD2 : (opsD2 : List (HloOp τ sig (Elt Ideal))).Forall (WritesFrom 71) := by unfold opsD2; writes_from
theorem fromE1 : (opsE1 : List (HloOp τ sig (Elt Ideal))).Forall (WritesFrom 74) := by unfold opsE1; writes_from
theorem fromE2 : (opsE2 : List (HloOp τ sig (Elt Ideal))).Forall (WritesFrom 94) := by unfold opsE2; writes_from
theorem fromG : (opsG : List (HloOp τ sig (Elt Ideal))).Forall (WritesFrom 97) := by unfold opsG; writes_from

/-! ## Each stretch's values, from any contents at its entry -/

section Reads

variable (V : Valuation τ sig (Elt Ideal))

theorem srcs_read : after opsA V (Proc.devRef .tc main_v3) = srcs (V (Proc.devRef .tc main_arg1)) := by
  after_results
  rfl

theorem tgts_read : after opsA V (Proc.devRef .tc main_v6) = tgts (V (Proc.devRef .tc main_arg1)) := by
  after_results
  rfl

theorem pos_read : after opsA V (Proc.devRef .tc main_v12)
    = cmpf .ogt (deg (tgts (V (Proc.devRef .tc main_arg1)))) (broadcastInDim S100000 ![] Facts₀.bcast_S_S100000 (constant S_ .f32 0x00000000#32)) := by
  after_results
  rfl

theorem rsqrt_read : after opsA V (Proc.devRef .tc main_v15)
    = Host.rsqrt (maximumf (deg (tgts (V (Proc.devRef .tc main_arg1)))) (broadcastInDim S100000 ![] Facts₀.bcast_S_S100000 (constant S_ .f32 0x3F800000#32))) := by
  after_results
  rfl

theorem zero_read : after opsA V (Proc.devRef .tc main_cst_3) = constant (F := Ideal) S_ .f32 0x00000000#32 := by
  after_results

theorem where_read : after opsB V (Proc.devRef .tc main_v16)
    = select (V (Proc.devRef .tc main_v12)) (V (Proc.devRef .tc main_v15)) (broadcastInDim S100000 ![] Facts₀.bcast_S_S100000 (id (V (Proc.devRef .tc main_cst_3)))) := by
  after_results
  rfl

set_option maxHeartbeats 2000000 in
theorem weight_read : after opsC V (Proc.devRef .tc main_v31)
    = mulf (F := Ideal) (φ := .f32) (Host.gather gather_S100000_S1700000x1_S1700000_n_0_n_n_0_1_1 (V (Proc.devRef .tc main_v16)) (wrap (F := Ideal) (V (Proc.devRef .tc main_v3))))
        (Host.gather gather_S100000_S1700000x1_S1700000_n_0_n_n_0_1_1 (V (Proc.devRef .tc main_v16)) (wrap (F := Ideal) (V (Proc.devRef .tc main_v6)))) := by
  after_results
  rfl

set_option maxHeartbeats 4000000 in
theorem layer1_read : after opsD1 V (Proc.devRef .tc main_v48)
    = bias1 (agg1 (lin1 (V (Proc.devRef .tc main_arg0)) (V (Proc.devRef .tc main_arg2))) (V (Proc.devRef .tc main_v3)) (V (Proc.devRef .tc main_v6)) (V (Proc.devRef .tc main_v31))) (V (Proc.devRef .tc main_arg3)) := by
  after_results
  rfl

theorem relu1_read : after opsD2 V (Proc.devRef .tc main_v49) = relu1 (V (Proc.devRef .tc main_v48)) := by
  after_results
  rfl

set_option maxHeartbeats 4000000 in
theorem layer2_read : after opsE1 V (Proc.devRef .tc main_v66)
    = bias2 (agg2 (lin2 (V (Proc.devRef .tc main_v49)) (V (Proc.devRef .tc main_arg4))) (V (Proc.devRef .tc main_v3)) (V (Proc.devRef .tc main_v6)) (V (Proc.devRef .tc main_v31))) (V (Proc.devRef .tc main_arg5)) := by
  after_results
  rfl

theorem relu2_read : after opsE2 V (Proc.devRef .tc main_v67) = relu2 (V (Proc.devRef .tc main_v66)) := by
  after_results
  rfl

set_option maxHeartbeats 4000000 in
theorem layer3_read : after opsG V (Proc.devRef .tc main_v84)
    = bias3 (agg3 (lin3 (V (Proc.devRef .tc main_v67)) (V (Proc.devRef .tc main_arg6))) (V (Proc.devRef .tc main_v3)) (V (Proc.devRef .tc main_v6)) (V (Proc.devRef .tc main_v31))) (V (Proc.devRef .tc main_arg7)) := by
  after_results
  rfl

end Reads

/-! ## The walk through the eight stretches -/

variable (W : Valuation τ sig (Elt Ideal))

abbrev X1 : Valuation τ sig (Elt Ideal) := after opsA W
abbrev X2 : Valuation τ sig (Elt Ideal) := after opsB (X1 W)
abbrev X3 : Valuation τ sig (Elt Ideal) := after opsC (X2 W)
abbrev X4 : Valuation τ sig (Elt Ideal) := after opsD1 (X3 W)
abbrev X5 : Valuation τ sig (Elt Ideal) := after opsD2 (X4 W)
abbrev X6 : Valuation τ sig (Elt Ideal) := after opsE1 (X5 W)
abbrev X7 : Valuation τ sig (Elt Ideal) := after opsE2 (X6 W)
abbrev X8 : Valuation τ sig (Elt Ideal) := after opsG (X7 W)

theorem after_ops : after ops W = X8 W := by
  rw [ops_split]
  simp only [StableHlo.after_append]

/-- An argument is still at its launch contents at the third, fifth and seventh boundary. -/
theorem arg3 (b : Ref sig .tc) (hb : b.idx.val < 8) : X3 W (Proc.devRef .tc b) = W (Proc.devRef .tc b) :=
  (after_low opsC fromC (X2 W) (by omega)).trans ((after_low opsB fromB (X1 W) (by omega)).trans (after_low opsA fromA W hb))
theorem keep5 (b : Ref sig .tc) (hb : b.idx.val < 51) : X5 W (Proc.devRef .tc b) = X3 W (Proc.devRef .tc b) :=
  (after_low opsD2 fromD2 (X4 W) (by omega)).trans (after_low opsD1 fromD1 (X3 W) hb)
theorem keep7 (b : Ref sig .tc) (hb : b.idx.val < 51) : X7 W (Proc.devRef .tc b) = X3 W (Proc.devRef .tc b) :=
  (after_low opsE2 fromE2 (X6 W) (by omega)).trans ((after_low opsE1 fromE1 (X5 W) (by omega)).trans (keep5 W b hb))

theorem srcs3 : X3 W (Proc.devRef .tc main_v3) = srcs (W (Proc.devRef .tc main_arg1)) :=
  (after_low opsC fromC (X2 W) (by decide)).trans ((after_low opsB fromB (X1 W) (by decide)).trans (srcs_read W))

theorem tgts3 : X3 W (Proc.devRef .tc main_v6) = tgts (W (Proc.devRef .tc main_arg1)) :=
  (after_low opsC fromC (X2 W) (by decide)).trans ((after_low opsB fromB (X1 W) (by decide)).trans (tgts_read W))

theorem dis2 : X2 W (Proc.devRef .tc main_v16) = dis (deg (tgts (W (Proc.devRef .tc main_arg1)))) := by
  refine (where_read (X1 W)).trans ?_
  rw [show X1 W (Proc.devRef .tc main_v12) = _ from pos_read W, show X1 W (Proc.devRef .tc main_v15) = _ from rsqrt_read W,
    show X1 W (Proc.devRef .tc main_cst_3) = _ from zero_read W]
  rfl

theorem weight3 : X3 W (Proc.devRef .tc main_v31) = weight (srcs (W (Proc.devRef .tc main_arg1))) (tgts (W (Proc.devRef .tc main_arg1))) := by
  have e3 : X2 W (Proc.devRef .tc main_v3) = srcs (W (Proc.devRef .tc main_arg1)) :=
    (after_low opsB fromB (X1 W) (r := main_v3) (by decide)).trans (srcs_read W)
  have e6 : X2 W (Proc.devRef .tc main_v6) = tgts (W (Proc.devRef .tc main_arg1)) :=
    (after_low opsB fromB (X1 W) (r := main_v6) (by decide)).trans (tgts_read W)
  refine (weight_read (X2 W)).trans ?_
  rw [dis2, e3, e6]
  rfl

/-- The first layer's output. -/
theorem act1_at5 : X5 W (Proc.devRef .tc main_v49)
    = relu1 (bias1 (agg1 (lin1 (W (Proc.devRef .tc main_arg0)) (W (Proc.devRef .tc main_arg2))) (srcs (W (Proc.devRef .tc main_arg1))) (tgts (W (Proc.devRef .tc main_arg1)))
        (weight (srcs (W (Proc.devRef .tc main_arg1))) (tgts (W (Proc.devRef .tc main_arg1))))) (W (Proc.devRef .tc main_arg3))) := by
  refine (relu1_read (X4 W)).trans ?_
  rw [show X4 W (Proc.devRef .tc main_v48) = _ from layer1_read (X3 W), arg3 W main_arg0 (by decide), arg3 W main_arg2 (by decide),
    arg3 W main_arg3 (by decide), srcs3, tgts3, weight3]

/-- The second layer's output. -/
theorem act2_at7 : X7 W (Proc.devRef .tc main_v67)
    = relu2 (bias2 (agg2 (lin2 (X5 W (Proc.devRef .tc main_v49)) (W (Proc.devRef .tc main_arg4))) (srcs (W (Proc.devRef .tc main_arg1))) (tgts (W (Proc.devRef .tc main_arg1)))
        (weight (srcs (W (Proc.devRef .tc main_arg1))) (tgts (W (Proc.devRef .tc main_arg1))))) (W (Proc.devRef .tc main_arg5))) := by
  refine (relu2_read (X6 W)).trans ?_
  rw [show X6 W (Proc.devRef .tc main_v66) = _ from layer2_read (X5 W), keep5 W main_arg4 (by decide), arg3 W main_arg4 (by decide),
    keep5 W main_arg5 (by decide), arg3 W main_arg5 (by decide), keep5 W main_v3 (by decide), keep5 W main_v6 (by decide),
    keep5 W main_v31 (by decide), srcs3, tgts3, weight3]

/-- The result buffer after the operations: the network's output of the arguments' contents. -/
theorem out_eq : after ops W (Proc.devRef .tc main_v84)
    = Cert.Gcn.out (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) (W (Proc.devRef .tc main_arg7)) := by
  rw [after_ops, ← Cert.GcnR.out_eq]
  refine (layer3_read (X7 W)).trans ?_
  rw [act2_at7, act1_at5, keep7 W main_arg6 (by decide), arg3 W main_arg6 (by decide), keep7 W main_arg7 (by decide),
    arg3 W main_arg7 (by decide), keep7 W main_v3 (by decide), keep7 W main_v6 (by decide), keep7 W main_v31 (by decide),
    srcs3, tgts3, weight3]
  rfl

/-- No operation writes an argument's buffer. -/
theorem arg_kept (b : Ref sig .tc) (hb : b.idx.val < 8) : after ops W (Proc.devRef .tc b) = W (Proc.devRef .tc b) := by
  rw [after_ops]
  exact (after_low opsG fromG (X7 W) (by omega)).trans ((keep7 W b (by omega)).trans (arg3 W b hb))

/-- Every weakly fair execution of the reference terminates, nothing faulting, with the result at the network's output
    of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (out_eq (launchContents m c)),
      (h c main_arg0).trans (arg_kept (launchContents m c) main_arg0 (by decide)),
      (h c main_arg1).trans (arg_kept (launchContents m c) main_arg1 (by decide)),
      (h c main_arg2).trans (arg_kept (launchContents m c) main_arg2 (by decide)),
      (h c main_arg3).trans (arg_kept (launchContents m c) main_arg3 (by decide)),
      (h c main_arg4).trans (arg_kept (launchContents m c) main_arg4 (by decide)),
      (h c main_arg5).trans (arg_kept (launchContents m c) main_arg5 (by decide)),
      (h c main_arg6).trans (arg_kept (launchContents m c) main_arg6 (by decide)),
      (h c main_arg7).trans (arg_kept (launchContents m c) main_arg7 (by decide))⟩)
    (run_after (F := Ideal) m ρ)

end Cert.ReferenceIdeal.Out

end
-- ==== Proof.lean ====
/-
  A three-layer graph convolution as a Pallas kernel program against its jax.numpy reference: the claims.

  Both programs build the same graph data with the same host operations (the edge lists with a self loop per node, the
  degrees by a scatter-add of ones, deg^(-1/2) where the degree is positive, each edge's weight), and per layer gather the
  transformed rows at the edges' sources, scale them by the weights and scatter-add them at the targets.  They differ in
  the dense parts only: the kernel computes each layer's x · W in twenty row blocks on the matrix unit, its operands
  rounded to bf16 on the way in, and adds the bias (and takes max(·, 0)) in twenty row blocks; the reference does each
  over all nodes at once.  On the extended reals the rounding is the identity, a block of the product is the
  product's block, and the blocks cover every row, so both end with the same function of the arguments
  (Proof/Spec.lean `Cert.Gcn.out`) in their result arrays.  No step needs the inputs to be finite.
-/
import proofs.«165101_j81174881894904_1_alg».proof.Defs
import proofs.«165101_j81174881894904_1_alg».proof.Proof.Gen.Kernel
import proofs.«165101_j81174881894904_1_alg».proof.Proof.Gen.Kernel.Skeleton
import proofs.«165101_j81174881894904_1_alg».proof.Proof.Gen.Kernel.Launch
import proofs.«165101_j81174881894904_1_alg».proof.Proof.Gen.Kernel.Points
import proofs.«165101_j81174881894904_1_alg».proof.Proof.Gen.Kernel.Frame
import proofs.«165101_j81174881894904_1_alg».proof.Proof.Gen.KernelIdeal
import proofs.«165101_j81174881894904_1_alg».proof.Proof.Gen.KernelIdeal.Skeleton
import proofs.«165101_j81174881894904_1_alg».proof.Proof.Gen.KernelIdeal.Launch
import proofs.«165101_j81174881894904_1_alg».proof.Proof.Gen.KernelIdeal.Points
import proofs.«165101_j81174881894904_1_alg».proof.Proof.Gen.KernelIdeal.Frame
import proofs.«165101_j81174881894904_1_alg».proof.Proof.Gen.ReferenceIdeal
import proofs.«165101_j81174881894904_1_alg».proof.Proof.Gen.Pre_finite_inputs
import proofs.«165101_j81174881894904_1_alg».proof.Proof.Spec
import proofs.«165101_j81174881894904_1_alg».proof.Proof.KOut
import proofs.«165101_j81174881894904_1_alg».proof.Proof.KFold
import proofs.«165101_j81174881894904_1_alg».proof.Proof.RefOut
import Idealize.ShloMosaic.Adequacy
import Idealize.ShloMosaic.Init

noncomputable section

namespace Cert.Proof

open Idealize.ShloMosaic Idealize.SL.Sem

/-- The kernel program as printed runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The idealized reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Out.run m ρ)

/-- The ideal pass rewrote nothing. -/
theorem preserves : Cert.preserves_Kernel_KernelIdeal := trivial

/-- From memories agreeing on the arguments both idealized programs run, and both end with the network's output of the
    arguments in their result arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Out.run (F := Ideal) m ρ)
    exact ⟨(h c _ (Cert.KernelIdeal.Gen.mem_uc Cert.KernelIdeal.main_v79 (by decide))).trans (Cert.KernelIdeal.Fold.out_at12 m ρ c),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c),
      (h c _ (Cert.KernelIdeal.Gen.mem_uc Cert.KernelIdeal.main_arg7 (by decide))).trans (Cert.KernelIdeal.Gen.W12_main_arg7 m ρ c)⟩
  · refine (θ_run Cert.ReferenceIdeal.defs _ _).mono (fun r h c => ⟨(h c).1.trans ?_, (h c).2⟩) (Cert.ReferenceIdeal.Out.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
